-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S100000x32 : Shape := ⟨2, ![100000, 32]⟩
abbrev S50000x1 : Shape := ⟨2, ![50000, 1]⟩
abbrev S4000000 : Shape := ⟨1, ![4000000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S100000x32 : S_.BroadcastsInDim S100000x32 (![] : Fin 0 → Fin S100000x32.rank)
  reducesTo_S100000x32_S_d0_1 : S100000x32.ReducesTo [0, 1] S_
  bcast_S_S50000x1 : S_.BroadcastsInDim S50000x1 (![] : Fin 0 → Fin S50000x1.rank)
  reducesTo_S50000x1_S_d0_1 : S50000x1.ReducesTo [0, 1] S_
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_arg4 : FVec F S50000x1 .f32) (main_arg5 : FVec F S4000000 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S50000x1 .f32 := Host.absf main_arg4
  let main_cst_6 : FVec F S_ .f32 := constant S_ .f32 0x7F800000#32
  let main_v20 : FVec F S50000x1 .f32 := broadcastInDim S50000x1 ![] bcast_S_S50000x1 main_cst_6
  let main_v21 : IVec S50000x1 1 := cmpf .olt main_v19 main_v20
  let main_c_7 : IVec S_ 1 := constantI S_ 1 1#1
  let main_v22 : IVec S_ 1 := (fun x v => Host.reduce IntOp.andi x v reducesTo_S50000x1_S_d0_1 h_S_) main_v21 main_c_7
  let main_v23 : IVec S_ 1 := andi main_v18 main_v22
  let main_v24 : FVec F S4000000 .f32 := Host.absf main_arg5
  let main_cst_8 : FVec F S_ .f32 := constant S_ .f32 0x7F800000#32
  let main_v25 : FVec F S4000000 .f32 := broadcastInDim S4000000 ![] bcast_S_S4000000 main_cst_8
  let main_v26 : IVec S4000000 1 := cmpf .olt main_v24 main_v25
  let main_c_9 : IVec S_ 1 := constantI S_ 1 1#1
  let main_v27 : IVec S_ 1 := (fun x v => Host.reduce IntOp.andi x v reducesTo_S4000000_S_d0 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : FVec F S100000x32 .f32) (main_arg3 : FVec F S50000x1 .f32) (main_arg4 : FVec F S50000x1 .f32) (main_arg5 : FVec F S4000000 .f32) (main_arg6 : IVec S16384 32) (main_arg7 : IVec S16384 32) (main_arg8 : IVec S16384 32) (main_arg9 : IVec S4000000 32) (main_arg10 : IVec S4000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x32 .f32 := Host.absf main_arg2
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg5 main_v13 main_v16
-- ==== Kernel.lean ====
abbrev S100000x64 : Shape := ⟨2, ![100000, 64]⟩
abbrev S50000x64 : Shape := ⟨2, ![50000, 64]⟩
abbrev S100000x32 : Shape := ⟨2, ![100000, 32]⟩
abbrev S50000x1 : Shape := ⟨2, ![50000, 1]⟩
abbrev S4000000 : Shape := ⟨1, ![4000000]⟩
abbrev S16384 : Shape := ⟨1, ![16384]⟩
abbrev S_ : Shape := ⟨0, ![]⟩
abbrev S16384x1 : Shape := ⟨2, ![16384, 1]⟩
abbrev S16384x64 : Shape := ⟨2, ![16384, 64]⟩
abbrev S2000x32 : Shape := ⟨2, ![2000, 32]⟩
abbrev S2000 : Shape := ⟨1, ![2000]⟩
abbrev S2000x1 : Shape := ⟨2, ![2000, 1]⟩
abbrev S50000x32 : Shape := ⟨2, ![50000, 32]⟩
abbrev S150000x32 : Shape := ⟨2, ![150000, 32]⟩
abbrev S4000000x1 : Shape := ⟨2, ![4000000, 1]⟩
abbrev S4000000x32 : Shape := ⟨2, ![4000000, 32]⟩
abbrev S8000x1 : Shape := ⟨2, ![8000, 1]⟩
abbrev S8000x32 : Shape := ⟨2, ![8000, 32]⟩
abbrev S1000x32 : Shape := ⟨2, ![1000, 32]⟩
abbrev S1000x1 : Shape := ⟨2, ![1000, 1]⟩
abbrev S16384x32 : Shape := ⟨2, ![16384, 32]⟩
abbrev S1x16384 : Shape := ⟨2, ![1, 16384]⟩
abbrev S2x16384 : Shape := ⟨2, ![2, 16384]⟩

abbrev nBuf : Space → Nat
  | .hbm => 259
  | .vmem => 18
  | .smem => 0
  | _ => 0

abbrev hbmTy0_0 (i : Nat) : BufTy := match i % 128 with
  | 0 => ⟨S100000x64, .f32⟩
  | 1 => ⟨S50000x64, .f32⟩
  | 2 => ⟨S100000x32, .f32⟩
  | 3 => ⟨S50000x1, .f32⟩
  | 4 => ⟨S50000x1, .f32⟩
  | 5 => ⟨S4000000, .f32⟩
  | 6 => ⟨S16384, .i32⟩
  | 7 => ⟨S16384, .i32⟩
  | 8 => ⟨S16384, .i32⟩
  | 9 => ⟨S4000000, .i32⟩
  | 10 => ⟨S4000000, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384x64, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x64, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S16384x64, .f32⟩
  | 38 => ⟨S16384x64, .f32⟩
  | 39 => ⟨S_, .f32⟩
  | 40 => ⟨S_, .f32⟩
  | 41 => ⟨S16384x64, .f32⟩
  | 42 => ⟨S_, .f32⟩
  | 43 => ⟨S_, .f32⟩
  | 44 => ⟨S_, .f32⟩
  | 45 => ⟨S16384x64, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S50000x1, .f32⟩
  | 54 => ⟨S_, .f32⟩
  | 55 => ⟨S_, .f32⟩
  | 56 => ⟨S50000x1, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S100000x32, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S16384x64, .f32⟩
  | 78 => ⟨S_, .f32⟩
  | 79 => ⟨S16384, .f32⟩
  | 80 => ⟨S16384x64, .f32⟩
  | 81 => ⟨S_, .f32⟩
  | 82 => ⟨S16384, .f32⟩
  | 83 => ⟨S100000x32, .f32⟩
  | 84 => ⟨S_, .f32⟩
  | 85 => ⟨S50000x32, .f32⟩
  | 86 => ⟨S150000x32, .f32⟩
  | 87 => ⟨S_, .i32⟩
  | 88 => ⟨S4000000, .i32⟩
  | 89 => ⟨S4000000, .i1⟩
  | 90 => ⟨S_, .i32⟩
  | 91 => ⟨S4000000, .i32⟩
  | 92 => ⟨S4000000, .i32⟩
  | 93 => ⟨S4000000, .i32⟩
  | 94 => ⟨S4000000x1, .i32⟩
  | 95 => ⟨S4000000x32, .f32⟩
  | 96 => ⟨S4000000x1, .f32⟩
  | 97 => ⟨S4000000x32, .f32⟩
  | 98 => ⟨S_, .f32⟩
  | 99 => ⟨S150000x32, .f32⟩
  | 100 => ⟨S4000000x1, .i32⟩
  | 101 => ⟨S150000x32, .f32⟩
  | 102 => ⟨S50000x32, .f32⟩
  | 103 => ⟨S50000x32, .f32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S16384x1, .i32⟩
  | 112 => ⟨S16384x32, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S16384x32, .f32⟩
  | 122 => ⟨S16384x32, .f32⟩
  | 123 => ⟨S_, .f32⟩
  | 124 => ⟨S16384, .f32⟩
  | 125 => ⟨S_, .i32⟩
  | 126 => ⟨S16384, .i32⟩
  | 127 => ⟨S16384, .i1⟩
  | _ => ⟨S100000x64, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S16384x32, .f32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S16384x32, .f32⟩
  | 15 => ⟨S16384x32, .f32⟩
  | 16 => ⟨S_, .f32⟩
  | 17 => ⟨S16384, .f32⟩
  | 18 => ⟨S16384, .f32⟩
  | 19 => ⟨S16384, .f32⟩
  | 20 => ⟨S_, .f32⟩
  | 21 => ⟨S16384, .f32⟩
  | 22 => ⟨S16384, .f32⟩
  | 23 => ⟨S_, .f32⟩
  | 24 => ⟨S16384, .f32⟩
  | 25 => ⟨S16384, .f32⟩
  | 26 => ⟨S16384, .f32⟩
  | 27 => ⟨S16384, .f32⟩
  | 28 => ⟨S_, .f32⟩
  | 29 => ⟨S16384, .f32⟩
  | 30 => ⟨S16384, .f32⟩
  | 31 => ⟨S_, .f32⟩
  | 32 => ⟨S16384, .f32⟩
  | 33 => ⟨S16384, .f32⟩
  | 34 => ⟨S_, .f32⟩
  | 35 => ⟨S16384, .f32⟩
  | 36 => ⟨S_, .f32⟩
  | 37 => ⟨S16384, .f32⟩
  | 38 => ⟨S1x16384, .f32⟩
  | 39 => ⟨S1x16384, .f32⟩
  | 40 => ⟨S2x16384, .f32⟩
  | 41 => ⟨S1x16384, .f32⟩
  | 42 => ⟨S1x16384, .f32⟩
  | 43 => ⟨S2x16384, .f32⟩
  | 44 => ⟨S1x16384, .f32⟩
  | 45 => ⟨S1x16384, .f32⟩
  | 46 => ⟨S2x16384, .f32⟩
  | 47 => ⟨S2x16384, .f32⟩
  | 48 => ⟨S_, .f32⟩
  | 49 => ⟨S_, .f32⟩
  | 50 => ⟨S2x16384, .f32⟩
  | 51 => ⟨S2x16384, .f32⟩
  | 52 => ⟨S_, .f32⟩
  | 53 => ⟨S2x16384, .f32⟩
  | 54 => ⟨S2x16384, .f32⟩
  | 55 => ⟨S2x16384, .f32⟩
  | 56 => ⟨S_, .f32⟩
  | 57 => ⟨S_, .f32⟩
  | 58 => ⟨S2x16384, .f32⟩
  | 59 => ⟨S2x16384, .f32⟩
  | 60 => ⟨S2x16384, .f32⟩
  | 61 => ⟨S_, .f32⟩
  | 62 => ⟨S2x16384, .f32⟩
  | 63 => ⟨S2x16384, .f32⟩
  | 64 => ⟨S2x16384, .f32⟩
  | 65 => ⟨S2x16384, .f32⟩
  | 66 => ⟨S2x16384, .f32⟩
  | 67 => ⟨S2x16384, .f32⟩
  | 68 => ⟨S_, .f32⟩
  | 69 => ⟨S_, .f32⟩
  | 70 => ⟨S_, .f32⟩
  | 71 => ⟨S_, .f32⟩
  | 72 => ⟨S_, .f32⟩
  | 73 => ⟨S2x16384, .f32⟩
  | 74 => ⟨S2x16384, .f32⟩
  | 75 => ⟨S_, .f32⟩
  | 76 => ⟨S_, .f32⟩
  | 77 => ⟨S2x16384, .f32⟩
  | 78 => ⟨S2x16384, .f32⟩
  | 79 => ⟨S_, .f32⟩
  | 80 => ⟨S2x16384, .f32⟩
  | 81 => ⟨S2x16384, .f32⟩
  | 82 => ⟨S2x16384, .f32⟩
  | 83 => ⟨S_, .f32⟩
  | 84 => ⟨S_, .f32⟩
  | 85 => ⟨S2x16384, .f32⟩
  | 86 => ⟨S2x16384, .f32⟩
  | 87 => ⟨S2x16384, .f32⟩
  | 88 => ⟨S_, .f32⟩
  | 89 => ⟨S2x16384, .f32⟩
  | 90 => ⟨S2x16384, .f32⟩
  | 91 => ⟨S2x16384, .f32⟩
  | 92 => ⟨S2x16384, .f32⟩
  | 93 => ⟨S2x16384, .f32⟩
  | 94 => ⟨S_, .f32⟩
  | 95 => ⟨S2x16384, .f32⟩
  | 96 => ⟨S2x16384, .f32⟩
  | 97 => ⟨S2x16384, .f32⟩
  | 98 => ⟨S_, .f32⟩
  | 99 => ⟨S_, .f32⟩
  | 100 => ⟨S_, .f32⟩
  | 101 => ⟨S_, .f32⟩
  | 102 => ⟨S2x16384, .f32⟩
  | 103 => ⟨S_, .f32⟩
  | 104 => ⟨S_, .f32⟩
  | 105 => ⟨S2x16384, .f32⟩
  | 106 => ⟨S2x16384, .f32⟩
  | 107 => ⟨S_, .f32⟩
  | 108 => ⟨S2x16384, .f32⟩
  | 109 => ⟨S2x16384, .f32⟩
  | 110 => ⟨S2x16384, .f32⟩
  | 111 => ⟨S_, .f32⟩
  | 112 => ⟨S_, .f32⟩
  | 113 => ⟨S2x16384, .f32⟩
  | 114 => ⟨S2x16384, .f32⟩
  | 115 => ⟨S2x16384, .f32⟩
  | 116 => ⟨S_, .f32⟩
  | 117 => ⟨S2x16384, .f32⟩
  | 118 => ⟨S2x16384, .f32⟩
  | 119 => ⟨S2x16384, .f32⟩
  | 120 => ⟨S2x16384, .f32⟩
  | 121 => ⟨S2x16384, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S100000x64, .f32⟩

abbrev hbmTy0_2 (i : Nat) : BufTy := match i % 128 with
  | 0 => ⟨S_, .f32⟩
  | 1 => ⟨S_, .f32⟩
  | 2 => ⟨S_, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S8000x1, .f32⟩
  | .local _ .vmem, ⟨5, _⟩ => ⟨S8000x1, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S1000x32, .f32⟩
  | .local _ .vmem, ⟨11, _⟩ => ⟨S1000x32, .f32⟩
  | .local _ .vmem, ⟨12, _⟩ => ⟨S1000x1, .f32⟩
  | .local _ .vmem, ⟨13, _⟩ => ⟨S1000x1, .f32⟩
  | .local _ .vmem, ⟨14, _⟩ => ⟨S1000x1, .f32⟩
  | .local _ .vmem, ⟨15, _⟩ => ⟨S1000x1, .f32⟩
  | .local _ .vmem, ⟨16, _⟩ => ⟨S1000x32, .f32⟩
  | .local _ .vmem, ⟨17, _⟩ => ⟨S1000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_cst_16 : Ref sig .tc := ⟨.hbm, 72, rfl⟩
abbrev main_v43 : Ref sig .tc := ⟨.hbm, 73, rfl⟩
abbrev main_cst_17 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_18 : Ref sig .tc := ⟨.hbm, 78, rfl⟩
abbrev main_v47 : Ref sig .tc := ⟨.hbm, 79, rfl⟩
abbrev main_v48 : Ref sig .tc := ⟨.hbm, 80, rfl⟩
abbrev main_cst_19 : Ref sig .tc := ⟨.hbm, 81, rfl⟩
abbrev main_v49 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_c_21 : Ref sig .tc := ⟨.hbm, 87, rfl⟩
abbrev main_v53 : Ref sig .tc := ⟨.hbm, 88, rfl⟩
abbrev main_v54 : Ref sig .tc := ⟨.hbm, 89, rfl⟩
abbrev main_c_22 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_23 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_24 : Ref sig .tc := ⟨.hbm, 104, rfl⟩
abbrev main_v67 : Ref sig .tc := ⟨.hbm, 105, rfl⟩
abbrev main_v68 : Ref sig .tc := ⟨.hbm, 106, rfl⟩
abbrev main_c_25 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_26 : Ref sig .tc := ⟨.hbm, 113, rfl⟩
abbrev main_v74 : Ref sig .tc := ⟨.hbm, 114, rfl⟩
abbrev main_v75 : Ref sig .tc := ⟨.hbm, 115, rfl⟩
abbrev main_c_27 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_28 : Ref sig .tc := ⟨.hbm, 123, rfl⟩
abbrev main_v82 : Ref sig .tc := ⟨.hbm, 124, rfl⟩
abbrev main_c_29 : Ref sig .tc := ⟨.hbm, 125, rfl⟩
abbrev main_v83 : Ref sig .tc := ⟨.hbm, 126, rfl⟩
abbrev main_v84 : Ref sig .tc := ⟨.hbm, 127, rfl⟩
abbrev main_c_30 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_31 : Ref sig .tc := ⟨.hbm, 134, rfl⟩
abbrev main_v90 : Ref sig .tc := ⟨.hbm, 135, rfl⟩
abbrev main_v91 : Ref sig .tc := ⟨.hbm, 136, rfl⟩
abbrev main_c_32 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_33 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_34 : Ref sig .tc := ⟨.hbm, 148, rfl⟩
abbrev main_v101 : Ref sig .tc := ⟨.hbm, 149, rfl⟩
abbrev main_v102 : Ref sig .tc := ⟨.hbm, 150, rfl⟩
abbrev main_cst_35 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_36 : Ref sig .tc := ⟨.hbm, 156, rfl⟩
abbrev main_v107 : Ref sig .tc := ⟨.hbm, 157, rfl⟩
abbrev main_v108 : Ref sig .tc := ⟨.hbm, 158, rfl⟩
abbrev main_cst_37 : Ref sig .tc := ⟨.hbm, 159, rfl⟩
abbrev main_v109 : Ref sig .tc := ⟨.hbm, 160, rfl⟩
abbrev main_v110 : Ref sig .tc := ⟨.hbm, 161, rfl⟩
abbrev main_cst_38 : Ref sig .tc := ⟨.hbm, 162, rfl⟩
abbrev main_v111 : Ref sig .tc := ⟨.hbm, 163, rfl⟩
abbrev main_cst_39 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_40 : Ref sig .tc := ⟨.hbm, 176, rfl⟩
abbrev main_call0_v0 : Ref sig .tc := ⟨.hbm, 177, rfl⟩
abbrev main_call0_v1 : Ref sig .tc := ⟨.hbm, 178, rfl⟩
abbrev main_v123 : Ref sig .tc := ⟨.hbm, 179, rfl⟩
abbrev main_cst_41 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_42 : Ref sig .tc := ⟨.hbm, 184, rfl⟩
abbrev main_call1_v0 : Ref sig .tc := ⟨.hbm, 185, rfl⟩
abbrev main_call1_v1 : Ref sig .tc := ⟨.hbm, 186, rfl⟩
abbrev main_v127 : Ref sig .tc := ⟨.hbm, 187, rfl⟩
abbrev main_v128 : Ref sig .tc := ⟨.hbm, 188, rfl⟩
abbrev main_cst_43 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_44 : Ref sig .tc := ⟨.hbm, 196, rfl⟩
abbrev main_v135 : Ref sig .tc := ⟨.hbm, 197, rfl⟩
abbrev main_cst_45 : Ref sig .tc := ⟨.hbm, 198, rfl⟩
abbrev main_v136 : Ref sig .tc := ⟨.hbm, 199, rfl⟩
abbrev main_cst_46 : Ref sig .tc := ⟨.hbm, 200, rfl⟩
abbrev main_v137 : Ref sig .tc := ⟨.hbm, 201, rfl⟩
abbrev main_v138 : Ref sig .tc := ⟨.hbm, 202, rfl⟩
abbrev main_cst_47 : Ref sig .tc := ⟨.hbm, 203, rfl⟩
abbrev main_call2_v0 : Ref sig .tc := ⟨.hbm, 204, rfl⟩
abbrev main_call2_v1 : Ref sig .tc := ⟨.hbm, 205, rfl⟩
abbrev main_v139 : Ref sig .tc := ⟨.hbm, 206, rfl⟩
abbrev main_cst_48 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_49 : Ref sig .tc := ⟨.hbm, 211, rfl⟩
abbrev main_call3_v0 : Ref sig .tc := ⟨.hbm, 212, rfl⟩
abbrev main_call3_v1 : Ref sig .tc := ⟨.hbm, 213, rfl⟩
abbrev main_v143 : Ref sig .tc := ⟨.hbm, 214, rfl⟩
abbrev main_v144 : Ref sig .tc := ⟨.hbm, 215, rfl⟩
abbrev main_cst_50 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_51 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_52 : Ref sig .tc := ⟨.hbm, 226, rfl⟩
abbrev main_v153 : Ref sig .tc := ⟨.hbm, 227, rfl⟩
abbrev main_cst_53 : Ref sig .tc := ⟨.hbm, 228, rfl⟩
abbrev main_v154 : Ref sig .tc := ⟨.hbm, 229, rfl⟩
abbrev main_v155 : Ref sig .tc := ⟨.hbm, 230, rfl⟩
abbrev main_cst_54 : Ref sig .tc := ⟨.hbm, 231, rfl⟩
abbrev main_call4_v0 : Ref sig .tc := ⟨.hbm, 232, rfl⟩
abbrev main_call4_v1 : Ref sig .tc := ⟨.hbm, 233, rfl⟩
abbrev main_v156 : Ref sig .tc := ⟨.hbm, 234, rfl⟩
abbrev main_cst_55 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst_56 : Ref sig .tc := ⟨.hbm, 239, rfl⟩
abbrev main_call5_v0 : Ref sig .tc := ⟨.hbm, 240, rfl⟩
abbrev main_call5_v1 : Ref sig .tc := ⟨.hbm, 241, rfl⟩
abbrev main_v160 : Ref sig .tc := ⟨.hbm, 242, rfl⟩
abbrev main_v161 : Ref sig .tc := ⟨.hbm, 243, rfl⟩
abbrev main_cst_57 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_cst_58 : Ref sig .tc := ⟨.hbm, 250, rfl⟩
abbrev main_v167 : Ref sig .tc := ⟨.hbm, 251, rfl⟩
abbrev main_cst_59 : Ref sig .tc := ⟨.hbm, 252, rfl⟩
abbrev main_v168 : Ref sig .tc := ⟨.hbm, 253, rfl⟩
abbrev main_v169 : Ref sig .tc := ⟨.hbm, 254, rfl⟩
abbrev main_cst_60 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S_d0_1 : S16384x64.ReducesTo [0, 1] S_
  h_S_ : 0 < S_.numel
  reducesTo_S50000x1_S_d0_1 : S50000x1.ReducesTo [0, 1] S_
  reducesTo_S100000x32_S_d0_1 : S100000x32.ReducesTo [0, 1] S_
  reducesTo_S16384x64_S16384_d1 : S16384x64.ReducesTo [1] S16384
  inb_S2000x32_S2000x32_0_0 : ∀ a, (![0, 0] : Fin 2 → Nat) a + S2000x32.size a ≤ S2000x32.size a
  h_S2000x32 : 0 < S2000x32.numel
  reduces_S2000x32_S2000 : S2000x32.Reduces [1] S2000
  shapeCasts_S2000_S2000x1 : S2000.ShapeCasts S2000x1
  broadcasts_S2000x1_S2000x32 : S2000x1.Broadcasts S2000x32
  bcast_S_S50000x32 : S_.BroadcastsInDim S50000x32 (![] : Fin 0 → Fin S50000x32.rank)
  concatenates_S100000x32_S50000x32_S150000x32_d0 : Shape.Concatenates [S100000x32, S50000x32] S150000x32 0
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S8000x1_S8000x32 : S8000x1.Broadcasts S8000x32
  bcast_S_S150000x32 : S_.BroadcastsInDim S150000x32 (![] : Fin 0 → Fin S150000x32.rank)
  slices_S150000x32_S50000x32_100000_0 : S150000x32.Slices ![100000, 0] S50000x32
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S1000x1_S1000x1_0_0 : ∀ a, (![0, 0] : Fin 2 → Nat) a + S1000x1.size a ≤ S1000x1.size a
  h_S1000x1 : 0 < S1000x1.numel
  broadcasts_S1000x1_S1000x32 : S1000x1.Broadcasts S1000x32
  reducesTo_S16384x32_S16384_d1 : S16384x32.ReducesTo [1] S16384
  bcast_S16384_S1x16384_1 : S16384.BroadcastsInDim S1x16384 (![1] : Fin 1 → Fin S1x16384.rank)
  concatenates_S1x16384_S1x16384_S2x16384_d0 : Shape.Concatenates [S1x16384, S1x16384] S2x16384 0
  bcast_S_S2x16384 : S_.BroadcastsInDim S2x16384 (![] : Fin 0 → Fin S2x16384.rank)
  reducesTo_S2x16384_S_d0_1 : S2x16384.ReducesTo [0, 1] S_
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  gather_S150000x32_S4000000x1_S4000000x32_1_0_n_n_0_1_132_wf : GatherDims.WF S150000x32 S4000000x1 S4000000x32 [1] [0] [] [0] [] 1 ![1, 32]
  scatter_S150000x32_S4000000x1_S4000000x32_1_0_0_1_wf : ScatterDims.WF S150000x32 S4000000x1 S4000000x32 [1] [0] [0] 1
  gather_S100000x32_S16384x1_S16384x32_1_0_n_n_0_1_132_wf : GatherDims.WF S100000x32 S16384x1 S16384x32 [1] [0] [] [0] [] 1 ![1, 32]
  gather_S50000x32_S16384x1_S16384x32_1_0_n_n_0_1_132_wf : GatherDims.WF S50000x32 S16384x1 S16384x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S4000000x1.size a
  hwx1_0 : ∀ i : grid1.Coords, EltTy.bits .f32 = 32 ∨ (Rect.block (s := S4000000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S4000000x32.size a
  hwx1_1 : ∀ i : grid1.Coords, EltTy.bits .f32 = 32 ∨ (Rect.block (s := S4000000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S4000000x32.size a
  hwx1_2 : ∀ i : grid1.Coords, EltTy.bits .f32 = 32 ∨ (Rect.block (s := S4000000x32) S8000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x32.size a ≤ S50000x32.size a
  hwx2_0 : ∀ i : grid2.Coords, EltTy.bits .f32 = 32 ∨ (Rect.block (s := S50000x32) S1000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .f32 = 32 ∨ (Rect.block (s := S50000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x32.size a ≤ S50000x32.size a
  hwx2_3 : ∀ i : grid2.Coords, EltTy.bits .f32 = 32 ∨ (Rect.block (s := S50000x32) S1000x32.size (cc2_transform_3 i) (hinb2_3 i)).WholeWords (EltTy.packing .f32)

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S150000x32_S4000000x1_S4000000x32_1_0_n_n_0_1_132 : GatherDims S150000x32 S4000000x1 S4000000x32 where
  offsetDims := [1]
  collapsedSliceDims := [0]
  operandBatchingDims := []
  startIndicesBatchingDims := []
  startIndexMap := [0]
  indexVectorDim := 1
  sliceSizes := ![1, 32]
  wf := gather_S150000x32_S4000000x1_S4000000x32_1_0_n_n_0_1_132_wf
def scatter_S150000x32_S4000000x1_S4000000x32_1_0_0_1 : ScatterDims S150000x32 S4000000x1 S4000000x32 where
  updateWindowDims := [1]
  insertedWindowDims := [0]
  scatterDimsToOperandDims := [0]
  indexVectorDim := 1
  wf := scatter_S150000x32_S4000000x1_S4000000x32_1_0_0_1_wf
def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf
def gather_S50000x32_S16384x1_S16384x32_1_0_n_n_0_1_132 : GatherDims S50000x32 S16384x1 S16384x32 where
  offsetDims := [1]
  collapsedSliceDims := [0]
  operandBatchingDims := []
  startIndicesBatchingDims := []
  startIndexMap := [0]
  indexVectorDim := 1
  sliceSizes := ![1, 32]
  wf := gather_S50000x32_S16384x1_S16384x32_1_0_n_n_0_1_132_wf

abbrev win0_0 : Pipeline.Window sig grid0 :=
  Pipeline.Window.ofSpec (Memref.whole main_arg2) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S2000x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v60) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S8000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S1000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S100000x32 : Shape := ⟨2, ![100000, 32]⟩
abbrev S50000x1 : Shape := ⟨2, ![50000, 1]⟩
abbrev S4000000 : Shape := ⟨1, ![4000000]⟩
abbrev S16384 : Shape := ⟨1, ![16384]⟩
abbrev S_ : Shape := ⟨0, ![]⟩
abbrev S16384x1 : Shape := ⟨2, ![16384, 1]⟩
abbrev S16384x64 : Shape := ⟨2, ![16384, 64]⟩
abbrev S100000 : Shape := ⟨1, ![100000]⟩
abbrev S100000x1 : Shape := ⟨2, ![100000, 1]⟩
abbrev S50000x32 : Shape := ⟨2, ![50000, 32]⟩
abbrev S150000x32 : Shape := ⟨2, ![150000, 32]⟩
abbrev S4000000x1 : Shape := ⟨2, ![4000000, 1]⟩
abbrev S4000000x32 : Shape := ⟨2, ![4000000, 32]⟩
abbrev S16384x32 : Shape := ⟨2, ![16384, 32]⟩
abbrev S1x16384 : Shape := ⟨2, ![1, 16384]⟩
abbrev S2x16384 : Shape := ⟨2, ![2, 16384]⟩

abbrev nBuf : Space → Nat
  | .hbm => 284
  | .vmem => 0
  | .smem => 0
  | _ => 0

abbrev hbmTy0_0 (i : Nat) : BufTy := match i % 128 with
  | 0 => ⟨S100000x64, .f32⟩
  | 1 => ⟨S50000x64, .f32⟩
  | 2 => ⟨S100000x32, .f32⟩
  | 3 => ⟨S50000x1, .f32⟩
  | 4 => ⟨S50000x1, .f32⟩
  | 5 => ⟨S4000000, .f32⟩
  | 6 => ⟨S16384, .i32⟩
  | 7 => ⟨S16384, .i32⟩
  | 8 => ⟨S16384, .i32⟩
  | 9 => ⟨S4000000, .i32⟩
  | 10 => ⟨S4000000, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384x64, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x64, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S16384x64, .f32⟩
  | 38 => ⟨S16384x64, .f32⟩
  | 39 => ⟨S_, .f32⟩
  | 40 => ⟨S_, .f32⟩
  | 41 => ⟨S16384x64, .f32⟩
  | 42 => ⟨S_, .f32⟩
  | 43 => ⟨S_, .f32⟩
  | 44 => ⟨S_, .f32⟩
  | 45 => ⟨S16384x64, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S50000x1, .f32⟩
  | 54 => ⟨S_, .f32⟩
  | 55 => ⟨S_, .f32⟩
  | 56 => ⟨S50000x1, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S100000x32, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S16384x64, .f32⟩
  | 78 => ⟨S_, .f32⟩
  | 79 => ⟨S16384, .f32⟩
  | 80 => ⟨S16384x64, .f32⟩
  | 81 => ⟨S_, .f32⟩
  | 82 => ⟨S16384, .f32⟩
  | 83 => ⟨S_, .f32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x32, .f32⟩
  | 90 => ⟨S100000x32, .f32⟩
  | 91 => ⟨S100000x32, .f32⟩
  | 92 => ⟨S_, .f32⟩
  | 93 => ⟨S100000, .f32⟩
  | 94 => ⟨S100000x1, .f32⟩
  | 95 => ⟨S100000x32, .f32⟩
  | 96 => ⟨S100000x32, .f32⟩
  | 97 => ⟨S_, .f32⟩
  | 98 => ⟨S50000x32, .f32⟩
  | 99 => ⟨S150000x32, .f32⟩
  | 100 => ⟨S4000000x1, .f32⟩
  | 101 => ⟨S_, .i32⟩
  | 102 => ⟨S4000000, .i32⟩
  | 103 => ⟨S4000000, .i1⟩
  | 104 => ⟨S_, .i32⟩
  | 105 => ⟨S4000000, .i32⟩
  | 106 => ⟨S4000000, .i32⟩
  | 107 => ⟨S4000000, .i32⟩
  | 108 => ⟨S4000000x1, .i32⟩
  | 109 => ⟨S4000000x32, .f32⟩
  | 110 => ⟨S4000000x32, .f32⟩
  | 111 => ⟨S4000000x32, .f32⟩
  | 112 => ⟨S_, .f32⟩
  | 113 => ⟨S150000x32, .f32⟩
  | 114 => ⟨S4000000x1, .i32⟩
  | 115 => ⟨S150000x32, .f32⟩
  | 116 => ⟨S50000x32, .f32⟩
  | 117 => ⟨S50000x32, .f32⟩
  | 118 => ⟨S50000x32, .f32⟩
  | 119 => ⟨S50000x32, .f32⟩
  | 120 => ⟨S50000x32, .f32⟩
  | 121 => ⟨S50000x32, .f32⟩
  | 122 => ⟨S50000x32, .f32⟩
  | 123 => ⟨S_, .f32⟩
  | 124 => ⟨S50000x32, .f32⟩
  | 125 => ⟨S50000x32, .f32⟩
  | 126 => ⟨S_, .f32⟩
  | 127 => ⟨S50000x32, .f32⟩
  | _ => ⟨S100000x64, .f32⟩

abbrev hbmTy0_1 (i : Nat) : BufTy := match i % 128 with
  | 0 => ⟨S50000x32, .f32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S16384x32, .f32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S16384x32, .f32⟩
  | 19 => ⟨S16384x32, .f32⟩
  | 20 => ⟨S_, .f32⟩
  | 21 => ⟨S16384, .f32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S16384x32, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x32, .f32⟩
  | 40 => ⟨S16384x32, .f32⟩
  | 41 => ⟨S_, .f32⟩
  | 42 => ⟨S16384, .f32⟩
  | 43 => ⟨S16384, .f32⟩
  | 44 => ⟨S16384, .f32⟩
  | 45 => ⟨S_, .f32⟩
  | 46 => ⟨S16384, .f32⟩
  | 47 => ⟨S16384, .f32⟩
  | 48 => ⟨S_, .f32⟩
  | 49 => ⟨S16384, .f32⟩
  | 50 => ⟨S16384, .f32⟩
  | 51 => ⟨S16384, .f32⟩
  | 52 => ⟨S16384, .f32⟩
  | 53 => ⟨S_, .f32⟩
  | 54 => ⟨S16384, .f32⟩
  | 55 => ⟨S16384, .f32⟩
  | 56 => ⟨S_, .f32⟩
  | 57 => ⟨S16384, .f32⟩
  | 58 => ⟨S16384, .f32⟩
  | 59 => ⟨S_, .f32⟩
  | 60 => ⟨S16384, .f32⟩
  | 61 => ⟨S_, .f32⟩
  | 62 => ⟨S16384, .f32⟩
  | 63 => ⟨S1x16384, .f32⟩
  | 64 => ⟨S1x16384, .f32⟩
  | 65 => ⟨S2x16384, .f32⟩
  | 66 => ⟨S1x16384, .f32⟩
  | 67 => ⟨S1x16384, .f32⟩
  | 68 => ⟨S2x16384, .f32⟩
  | 69 => ⟨S1x16384, .f32⟩
  | 70 => ⟨S1x16384, .f32⟩
  | 71 => ⟨S2x16384, .f32⟩
  | 72 => ⟨S2x16384, .f32⟩
  | 73 => ⟨S_, .f32⟩
  | 74 => ⟨S_, .f32⟩
  | 75 => ⟨S2x16384, .f32⟩
  | 76 => ⟨S2x16384, .f32⟩
  | 77 => ⟨S_, .f32⟩
  | 78 => ⟨S2x16384, .f32⟩
  | 79 => ⟨S2x16384, .f32⟩
  | 80 => ⟨S2x16384, .f32⟩
  | 81 => ⟨S_, .f32⟩
  | 82 => ⟨S_, .f32⟩
  | 83 => ⟨S2x16384, .f32⟩
  | 84 => ⟨S2x16384, .f32⟩
  | 85 => ⟨S2x16384, .f32⟩
  | 86 => ⟨S_, .f32⟩
  | 87 => ⟨S2x16384, .f32⟩
  | 88 => ⟨S2x16384, .f32⟩
  | 89 => ⟨S2x16384, .f32⟩
  | 90 => ⟨S2x16384, .f32⟩
  | 91 => ⟨S2x16384, .f32⟩
  | 92 => ⟨S2x16384, .f32⟩
  | 93 => ⟨S_, .f32⟩
  | 94 => ⟨S_, .f32⟩
  | 95 => ⟨S_, .f32⟩
  | 96 => ⟨S_, .f32⟩
  | 97 => ⟨S_, .f32⟩
  | 98 => ⟨S2x16384, .f32⟩
  | 99 => ⟨S2x16384, .f32⟩
  | 100 => ⟨S_, .f32⟩
  | 101 => ⟨S_, .f32⟩
  | 102 => ⟨S2x16384, .f32⟩
  | 103 => ⟨S2x16384, .f32⟩
  | 104 => ⟨S_, .f32⟩
  | 105 => ⟨S2x16384, .f32⟩
  | 106 => ⟨S2x16384, .f32⟩
  | 107 => ⟨S2x16384, .f32⟩
  | 108 => ⟨S_, .f32⟩
  | 109 => ⟨S_, .f32⟩
  | 110 => ⟨S2x16384, .f32⟩
  | 111 => ⟨S2x16384, .f32⟩
  | 112 => ⟨S2x16384, .f32⟩
  | 113 => ⟨S_, .f32⟩
  | 114 => ⟨S2x16384, .f32⟩
  | 115 => ⟨S2x16384, .f32⟩
  | 116 => ⟨S2x16384, .f32⟩
  | 117 => ⟨S2x16384, .f32⟩
  | 118 => ⟨S2x16384, .f32⟩
  | 119 => ⟨S_, .f32⟩
  | 120 => ⟨S2x16384, .f32⟩
  | 121 => ⟨S2x16384, .f32⟩
  | 122 => ⟨S2x16384, .f32⟩
  | 123 => ⟨S_, .f32⟩
  | 124 => ⟨S_, .f32⟩
  | 125 => ⟨S_, .f32⟩
  | 126 => ⟨S_, .f32⟩
  | 127 => ⟨S2x16384, .f32⟩
  | _ => ⟨S100000x64, .f32⟩

abbrev hbmTy0_2 (i : Nat) : BufTy := match i % 128 with
  | 0 => ⟨S_, .f32⟩
  | 1 => ⟨S_, .f32⟩
  | 2 => ⟨S2x16384, .f32⟩
  | 3 => ⟨S2x16384, .f32⟩
  | 4 => ⟨S_, .f32⟩
  | 5 => ⟨S2x16384, .f32⟩
  | 6 => ⟨S2x16384, .f32⟩
  | 7 => ⟨S2x16384, .f32⟩
  | 8 => ⟨S_, .f32⟩
  | 9 => ⟨S_, .f32⟩
  | 10 => ⟨S2x16384, .f32⟩
  | 11 => ⟨S2x16384, .f32⟩
  | 12 => ⟨S2x16384, .f32⟩
  | 13 => ⟨S_, .f32⟩
  | 14 => ⟨S2x16384, .f32⟩
  | 15 => ⟨S2x16384, .f32⟩
  | 16 => ⟨S2x16384, .f32⟩
  | 17 => ⟨S2x16384, .f32⟩
  | 18 => ⟨S2x16384, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_cst_16 : Ref sig .tc := ⟨.hbm, 72, rfl⟩
abbrev main_v43 : Ref sig .tc := ⟨.hbm, 73, rfl⟩
abbrev main_cst_17 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_18 : Ref sig .tc := ⟨.hbm, 78, rfl⟩
abbrev main_v47 : Ref sig .tc := ⟨.hbm, 79, rfl⟩
abbrev main_v48 : Ref sig .tc := ⟨.hbm, 80, rfl⟩
abbrev main_cst_19 : Ref sig .tc := ⟨.hbm, 81, rfl⟩
abbrev main_v49 : Ref sig .tc := ⟨.hbm, 82, rfl⟩
abbrev main_cst_20 : Ref sig .tc := ⟨.hbm, 83, rfl⟩
abbrev main_v50 : Ref sig .tc := ⟨.hbm, 84, rfl⟩
abbrev main_cst_21 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_22 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_23 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_24 : Ref sig .tc := ⟨.hbm, 101, rfl⟩
abbrev main_v64 : Ref sig .tc := ⟨.hbm, 102, rfl⟩
abbrev main_v65 : Ref sig .tc := ⟨.hbm, 103, rfl⟩
abbrev main_c_25 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_26 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_27 : Ref sig .tc := ⟨.hbm, 123, rfl⟩
abbrev main_v83 : Ref sig .tc := ⟨.hbm, 124, rfl⟩
abbrev main_v84 : Ref sig .tc := ⟨.hbm, 125, rfl⟩
abbrev main_cst_28 : Ref sig .tc := ⟨.hbm, 126, rfl⟩
abbrev main_v85 : Ref sig .tc := ⟨.hbm, 127, rfl⟩
abbrev main_v86 : Ref sig .tc := ⟨.hbm, 128, rfl⟩
abbrev main_c_29 : Ref sig .tc := ⟨.hbm, 129, rfl⟩
abbrev main_v87 : Ref sig .tc := ⟨.hbm, 130, rfl⟩
abbrev main_v88 : Ref sig .tc := ⟨.hbm, 131, rfl⟩
abbrev main_c_30 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_31 : Ref sig .tc := ⟨.hbm, 138, rfl⟩
abbrev main_v94 : Ref sig .tc := ⟨.hbm, 139, rfl⟩
abbrev main_v95 : Ref sig .tc := ⟨.hbm, 140, rfl⟩
abbrev main_c_32 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_33 : Ref sig .tc := ⟨.hbm, 148, rfl⟩
abbrev main_v102 : Ref sig .tc := ⟨.hbm, 149, rfl⟩
abbrev main_c_34 : Ref sig .tc := ⟨.hbm, 150, rfl⟩
abbrev main_v103 : Ref sig .tc := ⟨.hbm, 151, rfl⟩
abbrev main_v104 : Ref sig .tc := ⟨.hbm, 152, rfl⟩
abbrev main_c_35 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_36 : Ref sig .tc := ⟨.hbm, 159, rfl⟩
abbrev main_v110 : Ref sig .tc := ⟨.hbm, 160, rfl⟩
abbrev main_v111 : Ref sig .tc := ⟨.hbm, 161, rfl⟩
abbrev main_c_37 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_38 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_39 : Ref sig .tc := ⟨.hbm, 173, rfl⟩
abbrev main_v121 : Ref sig .tc := ⟨.hbm, 174, rfl⟩
abbrev main_v122 : Ref sig .tc := ⟨.hbm, 175, rfl⟩
abbrev main_cst_40 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_41 : Ref sig .tc := ⟨.hbm, 181, rfl⟩
abbrev main_v127 : Ref sig .tc := ⟨.hbm, 182, rfl⟩
abbrev main_v128 : Ref sig .tc := ⟨.hbm, 183, rfl⟩
abbrev main_cst_42 : Ref sig .tc := ⟨.hbm, 184, rfl⟩
abbrev main_v129 : Ref sig .tc := ⟨.hbm, 185, rfl⟩
abbrev main_v130 : Ref sig .tc := ⟨.hbm, 186, rfl⟩
abbrev main_cst_43 : Ref sig .tc := ⟨.hbm, 187, rfl⟩
abbrev main_v131 : Ref sig .tc := ⟨.hbm, 188, rfl⟩
abbrev main_cst_44 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_45 : Ref sig .tc := ⟨.hbm, 201, rfl⟩
abbrev main_call0_v0 : Ref sig .tc := ⟨.hbm, 202, rfl⟩
abbrev main_call0_v1 : Ref sig .tc := ⟨.hbm, 203, rfl⟩
abbrev main_v143 : Ref sig .tc := ⟨.hbm, 204, rfl⟩
abbrev main_cst_46 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_47 : Ref sig .tc := ⟨.hbm, 209, rfl⟩
abbrev main_call1_v0 : Ref sig .tc := ⟨.hbm, 210, rfl⟩
abbrev main_call1_v1 : Ref sig .tc := ⟨.hbm, 211, rfl⟩
abbrev main_v147 : Ref sig .tc := ⟨.hbm, 212, rfl⟩
abbrev main_v148 : Ref sig .tc := ⟨.hbm, 213, rfl⟩
abbrev main_cst_48 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_49 : Ref sig .tc := ⟨.hbm, 221, rfl⟩
abbrev main_v155 : Ref sig .tc := ⟨.hbm, 222, rfl⟩
abbrev main_cst_50 : Ref sig .tc := ⟨.hbm, 223, rfl⟩
abbrev main_v156 : Ref sig .tc := ⟨.hbm, 224, rfl⟩
abbrev main_cst_51 : Ref sig .tc := ⟨.hbm, 225, rfl⟩
abbrev main_v157 : Ref sig .tc := ⟨.hbm, 226, rfl⟩
abbrev main_v158 : Ref sig .tc := ⟨.hbm, 227, rfl⟩
abbrev main_cst_52 : Ref sig .tc := ⟨.hbm, 228, rfl⟩
abbrev main_call2_v0 : Ref sig .tc := ⟨.hbm, 229, rfl⟩
abbrev main_call2_v1 : Ref sig .tc := ⟨.hbm, 230, rfl⟩
abbrev main_v159 : Ref sig .tc := ⟨.hbm, 231, rfl⟩
abbrev main_cst_53 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_cst_54 : Ref sig .tc := ⟨.hbm, 236, rfl⟩
abbrev main_call3_v0 : Ref sig .tc := ⟨.hbm, 237, rfl⟩
abbrev main_call3_v1 : Ref sig .tc := ⟨.hbm, 238, rfl⟩
abbrev main_v163 : Ref sig .tc := ⟨.hbm, 239, rfl⟩
abbrev main_v164 : Ref sig .tc := ⟨.hbm, 240, rfl⟩
abbrev main_cst_55 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_cst_56 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_cst_57 : Ref sig .tc := ⟨.hbm, 251, rfl⟩
abbrev main_v173 : Ref sig .tc := ⟨.hbm, 252, rfl⟩
abbrev main_cst_58 : Ref sig .tc := ⟨.hbm, 253, rfl⟩
abbrev main_v174 : Ref sig .tc := ⟨.hbm, 254, rfl⟩
abbrev main_v175 : Ref sig .tc := ⟨.hbm, 255, rfl⟩
abbrev main_cst_59 : Ref sig .tc := ⟨.hbm, 256, rfl⟩
abbrev main_call4_v0 : Ref sig .tc := ⟨.hbm, 257, rfl⟩
abbrev main_call4_v1 : Ref sig .tc := ⟨.hbm, 258, rfl⟩
abbrev main_v176 : Ref sig .tc := ⟨.hbm, 259, rfl⟩
abbrev main_cst_60 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_cst_61 : Ref sig .tc := ⟨.hbm, 264, rfl⟩
abbrev main_call5_v0 : Ref sig .tc := ⟨.hbm, 265, rfl⟩
abbrev main_call5_v1 : Ref sig .tc := ⟨.hbm, 266, rfl⟩
abbrev main_v180 : Ref sig .tc := ⟨.hbm, 267, rfl⟩
abbrev main_v181 : Ref sig .tc := ⟨.hbm, 268, rfl⟩
abbrev main_cst_62 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_cst_63 : Ref sig .tc := ⟨.hbm, 275, rfl⟩
abbrev main_v187 : Ref sig .tc := ⟨.hbm, 276, rfl⟩
abbrev main_cst_64 : Ref sig .tc := ⟨.hbm, 277, rfl⟩
abbrev main_v188 : Ref sig .tc := ⟨.hbm, 278, rfl⟩
abbrev main_v189 : Ref sig .tc := ⟨.hbm, 279, rfl⟩
abbrev main_cst_65 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S_d0_1 : S16384x64.ReducesTo [0, 1] S_
  h_S_ : 0 < S_.numel
  reducesTo_S50000x1_S_d0_1 : S50000x1.ReducesTo [0, 1] S_
  reducesTo_S100000x32_S_d0_1 : S100000x32.ReducesTo [0, 1] S_
  reducesTo_S16384x64_S16384_d1 : S16384x64.ReducesTo [1] S16384
  reducesTo_S100000x32_S100000_d1 : S100000x32.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S50000x32 : S_.BroadcastsInDim S50000x32 (![] : Fin 0 → Fin S50000x32.rank)
  concatenates_S100000x32_S50000x32_S150000x32_d0 : Shape.Concatenates [S100000x32, S50000x32] S150000x32 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x32_0_1 : S4000000x1.BroadcastsInDim S4000000x32 (![0, 1] : Fin 2 → Fin S4000000x32.rank)
  bcast_S_S150000x32 : S_.BroadcastsInDim S150000x32 (![] : Fin 0 → Fin S150000x32.rank)
  slices_S150000x32_S50000x32_100000_0 : S150000x32.Slices ![100000, 0] S50000x32
  bcast_S50000x1_S50000x32_0_1 : S50000x1.BroadcastsInDim S50000x32 (![0, 1] : Fin 2 → Fin S50000x32.rank)
  reducesTo_S16384x32_S16384_d1 : S16384x32.ReducesTo [1] S16384
  bcast_S16384_S1x16384_1 : S16384.BroadcastsInDim S1x16384 (![1] : Fin 1 → Fin S1x16384.rank)
  concatenates_S1x16384_S1x16384_S2x16384_d0 : Shape.Concatenates [S1x16384, S1x16384] S2x16384 0
  bcast_S_S2x16384 : S_.BroadcastsInDim S2x16384 (![] : Fin 0 → Fin S2x16384.rank)
  reducesTo_S2x16384_S_d0_1 : S2x16384.ReducesTo [0, 1] S_
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  gather_S150000x32_S4000000x1_S4000000x32_1_0_n_n_0_1_132_wf : GatherDims.WF S150000x32 S4000000x1 S4000000x32 [1] [0] [] [0] [] 1 ![1, 32]
  scatter_S150000x32_S4000000x1_S4000000x32_1_0_0_1_wf : ScatterDims.WF S150000x32 S4000000x1 S4000000x32 [1] [0] [0] 1
  gather_S100000x32_S16384x1_S16384x32_1_0_n_n_0_1_132_wf : GatherDims.WF S100000x32 S16384x1 S16384x32 [1] [0] [] [0] [] 1 ![1, 32]
  gather_S50000x32_S16384x1_S16384x32_1_0_n_n_0_1_132_wf : GatherDims.WF S50000x32 S16384x1 S16384x32 [1] [0] [] [0] [] 1 ![1, 32]

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S150000x32_S4000000x1_S4000000x32_1_0_n_n_0_1_132 : GatherDims S150000x32 S4000000x1 S4000000x32 where
  offsetDims := [1]
  collapsedSliceDims := [0]
  operandBatchingDims := []
  startIndicesBatchingDims := []
  startIndexMap := [0]
  indexVectorDim := 1
  sliceSizes := ![1, 32]
  wf := gather_S150000x32_S4000000x1_S4000000x32_1_0_n_n_0_1_132_wf
def scatter_S150000x32_S4000000x1_S4000000x32_1_0_0_1 : ScatterDims S150000x32 S4000000x1 S4000000x32 where
  updateWindowDims := [1]
  insertedWindowDims := [0]
  scatterDimsToOperandDims := [0]
  indexVectorDim := 1
  wf := scatter_S150000x32_S4000000x1_S4000000x32_1_0_0_1_wf
def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf
def gather_S50000x32_S16384x1_S16384x32_1_0_n_n_0_1_132 : GatherDims S50000x32 S16384x1 S16384x32 where
  offsetDims := [1]
  collapsedSliceDims := [0]
  operandBatchingDims := []
  startIndicesBatchingDims := []
  startIndexMap := [0]
  indexVectorDim := 1
  sliceSizes := ![1, 32]
  wf := gather_S50000x32_S16384x1_S16384x32_1_0_n_n_0_1_132_wf

class Facts : Prop extends Facts₀ where

variable [Facts]
-- ==== Proof.KRun.lean ====
/-
  The idealized kernel's run with its result kept.

  @main is nineteen segments: a stretch of host operations, the softmax call, a stretch, the edge-scaling call, a stretch,
  the sigmoid call, and thirteen stretches of host operations that end in the scalar loss.  The generated frame walks the
  buffers' contents through those segments (`W0` … `W19`) and states that the eleven argument arrays end as launched.  The
  same walk also says what EVERY unscoped buffer holds at the end — the contents `W19` — and the loss buffer is one of them:
  this module states the run with that one more conjunct, the loss buffer at `W19`, beside the arguments.
-/
import proofs.«176725_j31147102830631_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the theorem on a run of segments are found by unifying its conclusion with this one, which
-- takes unfolding plain definitions in a metavariable's type
set_option backward.isDefEq.respectTransparency.types false in
/-- Every weakly fair execution of @main ends, nothing faulting, with the loss buffer at the last boundary's contents
    `W19` and the eleven argument arrays as launched. -/
theorem run : θ_run defs (onTc (τ := τ) (main (F := F))) ⟨m, fun _ => 0, ρ⟩ (fun r => ∀ c : Dev nD,
      r.2.mem ((c.tc : Thread nD τ).loc main_v172) = W19 m ρ c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v172 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.KernelIdeal.KValue

end
-- ==== Proof.LibHostResults.lean ====
/-
  A buffer after a literal list of host operations, read as the operations' composed term of the contents before the list
  — through two-operand concatenations.

  The library's one-pass reading of a host stretch rewrites each operation's result equation everywhere in the goal.  It does
  not rewrite inside the operands of a `concatenate t a [⟨s₁, x⟩, ⟨s₂, y⟩] h` (a `jnp.stack` or a two-operand
  `jnp.concatenate`): the operands sit in dependent pairs and the concatenation's side condition depends on the list, and
  each operand is left as the whole chain of every result written before it.  `concat2` is the same concatenation with
  its two operands as plain arguments, `concat2_fold` folds a two-operand concatenation into it by `rfl`, and
  `host_results` is the one pass with that fold tried first at every concatenation, so that the pass goes on inside the
  operands.

  Use: on a goal `StableHlo.after ops V (Proc.devRef .tc b) = …` with `ops` a literal list (or a nest of such `after`s
  over several literal lists), `host_results` leaves the operations' composed term over `V` at the buffers the list only
  reads; against a term that spells the concatenations with `concatenate`, `rfl` unfolds `concat2`.
-/
import Idealize.ShloMosaic.Lib.StableHlo.Run

namespace Idealize.ShloMosaic.StableHlo

open Idealize.ShloMosaic

/-- Two arrays joined along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A two-operand concatenation is `concat2` of its operands. -/
theorem concat2_fold {α : Type} (t : Shape) (a : Fin t.rank) (s1 s2 : Shape) (x : s1.Idx → α) (y : s2.Idx → α)
    (h : Shape.Concatenates (List.map (fun p : (s : Shape) × (s.Idx → α) => p.1) [⟨s1, x⟩, ⟨s2, y⟩]) t a) :
    concatenate t a [⟨s1, x⟩, ⟨s2, y⟩] h = concat2 t a s1 s2 h x y := rfl

/-- A buffer after a literal list of host operations, as the operations' composed term of the contents before them: one
    rewriting pass over the operations' result equations, a two-operand concatenation first folded so that the pass goes on
    inside its operands. -/
macro "host_results" : tactic =>
  `(tactic| simp (disch := decide) only [after_cons, after_nil, ↓concat2_fold,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

end Idealize.ShloMosaic.StableHlo
-- ==== Proof.Back.lean ====
/-
  Reading a buffer back through @main's segments.

  The generated frame names the buffers' contents at each boundary between segments: `W0` at launch, `W1` after the first
  stretch of host operations, `W2` after the softmax call, `W3` after the second stretch, `W4` after the edge-scaling call,
  `W5` after the third stretch, `W6` after the sigmoid call.  A stretch changes only the buffers its operations write, and a
  call only the arrays of its windows; so a buffer that a stretch does not write holds after it what it held before, and
  likewise across a call that does not own it.  These are the six one-step facts, the tactic that checks "no operation
  of this stretch writes this buffer" on the literal list, and the eleven argument arrays read back to the launch memory
  from the boundaries where something reads them.

-/
import proofs.«176725_j31147102830631_2_alg».proof.Proof.Gen.KernelIdeal.Frame
import proofs.«176725_j31147102830631_2_alg».proof.Proof.LibHostResults

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

/-- "No operation of this literal list writes this buffer": each operation's written buffer is a different reference. -/
macro "not_written" : tactic =>
  `(tactic| (refine List.forall_iff_forall_mem.mp ?_ <;>
      simp only [hostOps0, hostOps1, hostOps2, List.Forall, StableHlo.nullary_writes, StableHlo.unary_writes,
        StableHlo.binary_writes, StableHlo.ternary_writes, StableHlo.quaternary_writes, StableHlo.reshape_writes,
        StableHlo.binaryIndexed_writes, Finset.mem_singleton] <;>
      (repeat' apply And.intro) <;>
      exact StableHlo.devRef_ne_of_ne (by decide)))

variable {F : FTy → Type} [FloatOps F]
variable (m : (ℓ : Loc nD τ sig) → Buf (Elt F) ℓ) (ρ : Dev nD → PrngReg)

theorem back1 (c : Dev nD) (b : Ref sig .tc) (g : ∀ op ∈ (hostOps0 : List (HloOp τ sig (Elt F))), Proc.devRef .tc b ∉ op.writes) :
    W1 m ρ c (Proc.devRef .tc b) = m ((c : Thread nD τ).loc b) :=
  StableHlo.after_of_forall_not_mem (b := Proc.devRef .tc b) _ _ g
theorem back2 (c : Dev nD) (b : Ref sig .tc) (h : ∀ w, Pipeline.arrRef spec0 w ≠ b) :
    W2 m ρ c (Proc.devRef .tc b) = W1 m ρ c (Proc.devRef .tc b) := W2_of_ne m ρ c b h
theorem back3 (c : Dev nD) (b : Ref sig .tc) (g : ∀ op ∈ (hostOps1 : List (HloOp τ sig (Elt F))), Proc.devRef .tc b ∉ op.writes) :
    W3 m ρ c (Proc.devRef .tc b) = W2 m ρ c (Proc.devRef .tc b) :=
  StableHlo.after_of_forall_not_mem (b := Proc.devRef .tc b) _ _ g
theorem back4 (c : Dev nD) (b : Ref sig .tc) (h : ∀ w, Pipeline.arrRef spec1 w ≠ b) :
    W4 m ρ c (Proc.devRef .tc b) = W3 m ρ c (Proc.devRef .tc b) := W4_of_ne m ρ c b h
theorem back5 (c : Dev nD) (b : Ref sig .tc) (g : ∀ op ∈ (hostOps2 : List (HloOp τ sig (Elt F))), Proc.devRef .tc b ∉ op.writes) :
    W5 m ρ c (Proc.devRef .tc b) = W4 m ρ c (Proc.devRef .tc b) :=
  StableHlo.after_of_forall_not_mem (b := Proc.devRef .tc b) _ _ g
theorem back6 (c : Dev nD) (b : Ref sig .tc) (h : ∀ w, Pipeline.arrRef spec2 w ≠ b) :
    W6 m ρ c (Proc.devRef .tc b) = W5 m ρ c (Proc.devRef .tc b) := W6_of_ne m ρ c b h

/-! ## The argument arrays, where something reads them -/

/-- The softmax call finds `theta_user` as launched. -/
theorem W1_arg2 (c : Dev nD) : W1 m ρ c (Proc.devRef .tc main_arg2) = m ((c : Thread nD τ).loc main_arg2) :=
  back1 m ρ c main_arg2 (by not_written)

/-- The second stretch finds `edge_vals` and `edge_cols` as launched. -/
theorem W2_arg5 (c : Dev nD) : W2 m ρ c (Proc.devRef .tc main_arg5) = m ((c : Thread nD τ).loc main_arg5) :=
  (back2 m ρ c main_arg5 (by decide)).trans (back1 m ρ c main_arg5 (by not_written))
theorem W2_arg10 (c : Dev nD) : W2 m ρ c (Proc.devRef .tc main_arg10) = m ((c : Thread nD τ).loc main_arg10) :=
  (back2 m ρ c main_arg10 (by decide)).trans (back1 m ρ c main_arg10 (by not_written))

/-- The third stretch finds `edge_rows` as launched. -/
theorem W4_arg9 (c : Dev nD) : W4 m ρ c (Proc.devRef .tc main_arg9) = m ((c : Thread nD τ).loc main_arg9) :=
  (back4 m ρ c main_arg9 (by decide)).trans ((back3 m ρ c main_arg9 (by not_written)).trans
    ((back2 m ρ c main_arg9 (by decide)).trans (back1 m ρ c main_arg9 (by not_written))))

/-- The sigmoid call finds `w1` and `w2` as launched. -/
theorem W5_arg3 (c : Dev nD) : W5 m ρ c (Proc.devRef .tc main_arg3) = m ((c : Thread nD τ).loc main_arg3) :=
  (back5 m ρ c main_arg3 (by not_written)).trans ((back4 m ρ c main_arg3 (by decide)).trans ((back3 m ρ c main_arg3 (by not_written)).trans
    ((back2 m ρ c main_arg3 (by decide)).trans (back1 m ρ c main_arg3 (by not_written)))))
theorem W5_arg4 (c : Dev nD) : W5 m ρ c (Proc.devRef .tc main_arg4) = m ((c : Thread nD τ).loc main_arg4) :=
  (back5 m ρ c main_arg4 (by not_written)).trans ((back4 m ρ c main_arg4 (by decide)).trans ((back3 m ρ c main_arg4 (by not_written)).trans
    ((back2 m ρ c main_arg4 (by decide)).trans (back1 m ρ c main_arg4 (by not_written)))))

/-- A buffer that none of the three stretches writes and none of the three calls owns holds, after the sigmoid call,
    what it held after the first stretch. -/
theorem W6_of_W1 (c : Dev nD) (b : Ref sig .tc)
    (g1 : ∀ op ∈ (hostOps1 : List (HloOp τ sig (Elt F))), Proc.devRef .tc b ∉ op.writes)
    (g2 : ∀ op ∈ (hostOps2 : List (HloOp τ sig (Elt F))), Proc.devRef .tc b ∉ op.writes)
    (h0 : ∀ w, Pipeline.arrRef spec0 w ≠ b) (h1 : ∀ w, Pipeline.arrRef spec1 w ≠ b) (h2 : ∀ w, Pipeline.arrRef spec2 w ≠ b) :
    W6 m ρ c (Proc.devRef .tc b) = W1 m ρ c (Proc.devRef .tc b) :=
  (back6 m ρ c b h2).trans ((back5 m ρ c b g2).trans ((back4 m ρ c b h1).trans ((back3 m ρ c b g1).trans (back2 m ρ c b h0))))

/-- The tail finds `users`, `positive_items` and `negative_items` as launched. -/
theorem W6_arg6 (c : Dev nD) : W6 m ρ c (Proc.devRef .tc main_arg6) = m ((c : Thread nD τ).loc main_arg6) :=
  (W6_of_W1 m ρ c main_arg6 (by not_written) (by not_written) (by decide) (by decide) (by decide)).trans
    (back1 m ρ c main_arg6 (by not_written))
theorem W6_arg7 (c : Dev nD) : W6 m ρ c (Proc.devRef .tc main_arg7) = m ((c : Thread nD τ).loc main_arg7) :=
  (W6_of_W1 m ρ c main_arg7 (by not_written) (by not_written) (by decide) (by decide) (by decide)).trans
    (back1 m ρ c main_arg7 (by not_written))
theorem W6_arg8 (c : Dev nD) : W6 m ρ c (Proc.devRef .tc main_arg8) = m ((c : Thread nD τ).loc main_arg8) :=
  (W6_of_W1 m ρ c main_arg8 (by not_written) (by not_written) (by decide) (by decide) (by decide)).trans
    (back1 m ρ c main_arg8 (by not_written))

end Cert.KernelIdeal.KValue

end
-- ==== Proof.Host0.lean ====
/-
  The first stretch of host operations: what it leaves for the end of @main.

  Before any call @main gathers the three batches of embedding rows, forms the regularisation term and the two batches of
  scores.  Three of its buffers are read again only after the third call: the regularisation term and the two score
  vectors.  The kernel's program and the reference compute them by the same operations of the same arguments, so each is
  the reference's stage of the arguments as launched.
-/
import proofs.«176725_j31147102830631_2_alg».proof.Proof.Gen.KernelIdeal.Frame
import proofs.«176725_j31147102830631_2_alg».proof.Proof.RefRead

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 40000000 in
/-- The regularisation term after the first stretch. -/
theorem W1_reg (c : Dev nD) : W1 m ρ c (Proc.devRef .tc main_v45)
    = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps0 (W0 m ρ c) (Proc.devRef .tc main_v45) = _
  after_results_simp
  rfl

set_option maxHeartbeats 40000000 in
/-- The positive scores after the first stretch. -/
theorem W1_pos (c : Dev nD) : W1 m ρ c (Proc.devRef .tc main_v47)
    = Cert.ReferenceIdeal.Read.val_main_v47 (F := Ideal) (m ((c : Thread nD τ).loc main_arg0)) (m ((c : Thread nD τ).loc main_arg1)) (m ((c : Thread nD τ).loc main_arg6)) (m ((c : Thread nD τ).loc main_arg7)) := by
  show StableHlo.after hostOps0 (W0 m ρ c) (Proc.devRef .tc main_v47) = _
  after_results_simp
  rfl

set_option maxHeartbeats 40000000 in
/-- The negative scores after the first stretch. -/
theorem W1_neg (c : Dev nD) : W1 m ρ c (Proc.devRef .tc main_v49)
    = Cert.ReferenceIdeal.Read.val_main_v49 (F := Ideal) (m ((c : Thread nD τ).loc main_arg0)) (m ((c : Thread nD τ).loc main_arg1)) (m ((c : Thread nD τ).loc main_arg6)) (m ((c : Thread nD τ).loc main_arg8)) := by
  show StableHlo.after hostOps0 (W0 m ρ c) (Proc.devRef .tc main_v49) = _
  after_results_simp
  rfl

end Cert.KernelIdeal.KValue

end
-- ==== Proof.SoftmaxSpec.lean ====
/-
  The row softmax as a function of a row of 32 extended reals:  exp(x_q − M) / Σ_j exp(x_j − M)  with M the largest entry
  of the row, folded from −∞.
-/
import Idealize.ShloMosaic.PureOps.Ideal.Laws

noncomputable section

open scoped BigOperators

namespace Cert.Bridge

open Idealize.ShloMosaic

/-- The largest entry of a row, folded from −∞. -/
def rowMax (row : Fin 32 → EReal) : EReal :=
  (Finset.univ : Finset (Fin 32)).fold max (Ideal.ofBits .f32 0xFF800000#32) row

/-- The softmax of a row at column `q`. -/
def smx (row : Fin 32 → EReal) (q : Fin 32) : EReal :=
  Ideal.div (Ideal.exp (row q - rowMax row)) (∑ j : Fin 32, Ideal.exp (row j - rowMax row))

end Cert.Bridge

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.SoftmaxK.lean ====
/-
  The softmax call's stored value, read at a row and a column of a block.

  The call computes on a block of 2000 rows: a lane maximum, kept as a column and spread over the 32 columns, a
  subtraction, an exponential, a lane sum kept and spread the same way, a division.  At row p and column q that is the
  softmax of the block's row p at q.
-/
import proofs.«176725_j31147102830631_2_alg».proof.Proof.Gen.KernelIdeal.Skeleton
import proofs.«176725_j31147102830631_2_alg».proof.Proof.SoftmaxSpec
import proofs.«176725_j31147102830631_2_alg».proof.Proof.LibRowReduce
import proofs.«176725_j31147102830631_2_alg».proof.Proof.LibKeepdims

noncomputable section

open scoped BigOperators

namespace Cert.Bridge

open Idealize.ShloMosaic Idealize.ShloMosaic.ValueIdx

section Kernel
open Cert.KernelIdeal Cert.KernelIdeal.Gen

/-- The block's lane maximum, kept as a column and spread over the columns, is the row's maximum at every column. -/
theorem blockMax_apply (x : FVec Ideal S2000x32 .f32) (p : Fin 2000) (j : Fin 32) :
    broadcastTo S2000x32 (shapeCast S2000x1 (multiReduction .maximumf [1] S2000 x 0xFF800000#32 reduces_S2000x32_S2000 (.inl rfl) rfl)
      shapeCasts_S2000_S2000x1) broadcasts_S2000x1_S2000x32 (ix2 p j) = rowMax fun k => x (ix2 p k) :=
  (broadcastTo_a1_ab_apply _ _ p j).trans ((shapeCast_a_a1_apply _ _ p 0).trans (multiReduction_max_row x _ _ _ _ p))

/-- What the softmax call stores, at row `p` and column `q` of a block: the softmax of the block's row `p`. -/
theorem softmax_payload (x : FVec Ideal S2000x32 .f32) (p : Fin 2000) (q : Fin 32) :
    k0_pay1 (F := Ideal) x (ix2 p q) = smx (fun k => x (ix2 p k)) q := by
  unfold k0_pay1 smx
  refine congrArg₂ Ideal.div (congrArg Ideal.exp (congrArg (x (ix2 p q) - ·) (blockMax_apply x p q))) ?_
  refine (broadcastTo_a1_ab_apply _ _ p q).trans ((shapeCast_a_a1_apply _ _ p 0).trans
    ((multiReduction_add_row _ _ _ _ _ p).trans (Finset.sum_congr rfl fun j _ => ?_)))
  exact congrArg Ideal.exp (congrArg (x (ix2 p j) - ·) (blockMax_apply x p j))

end Kernel

end Cert.Bridge

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.SoftmaxR.lean ====
/-
  The reference's softmax stage, read at a row and a column.

  The reference computes on the whole 100000 × 32 array: the host's maximum-reduction along the rows (whose result it then
  joins with −∞ once more, which changes nothing), placed as a column and across the columns, a subtraction, an
  exponential, the host's sum started at zero placed the same way, a division.  At row r and column q that is the softmax
  of row r at q.
-/
import proofs.«176725_j31147102830631_2_alg».proof.Proof.RefRead
import proofs.«176725_j31147102830631_2_alg».proof.Proof.SoftmaxSpec
import proofs.«176725_j31147102830631_2_alg».proof.Proof.LibRowReduce
import proofs.«176725_j31147102830631_2_alg».proof.Proof.LibBroadcastInDim

noncomputable section

open scoped BigOperators

namespace Cert.Bridge

open Idealize.ShloMosaic Idealize.ShloMosaic.ValueIdx

section Reference
open Cert.ReferenceIdeal Cert.ReferenceIdeal.Gen Cert.ReferenceIdeal.Read

/-- Removing the second axis of a 100000 × 32 array leaves its 100000 rows. -/
theorem rows_reduce : (⟨2, ![100000, 32]⟩ : Shape).Reduces [1] (⟨1, ![100000]⟩ : Shape) := by decide

/-- The reference's row maximum, joined with −∞ once more, is the row's maximum. -/
theorem refRowMax (X : FVec Ideal S100000x32 .f32) (r : Fin 100000) :
    val_main_v52 (F := Ideal) X (ix1 r) = rowMax fun k => X (ix2 r k) := by
  unfold rowMax
  have h50 : val_main_v50 (F := Ideal) X (ix1 r)
      = (Finset.univ : Finset (Fin 32)).fold max (Ideal.ofBits .f32 0xFF800000#32) (fun k => X (ix2 r k)) := by
    unfold val_main_v50
    refine (hostReduce_max_row reducesTo_S100000x32_S100000_d1 rows_reduce X (val_main_cst_20 (F := Ideal)) h_S_ r).trans ?_
    rw [val_main_cst_20_apply, Ideal.ofBits_def]
  have h51 : val_main_v51 (F := Ideal) (ix1 r) = Ideal.ofBits .f32 0xFF800000#32 := by
    rw [val_main_v51_apply, val_main_cst_21_apply, Ideal.ofBits_def]
  rw [val_main_v52_apply, Ideal.maximumf_def, h50, h51]
  exact max_fold_max_self _ _ _

/-- That maximum placed as a column and spread over the columns. -/
theorem refMax_apply (X : FVec Ideal S100000x32 .f32) (r : Fin 100000) (j : Fin 32) :
    val_main_v54 (F := Ideal) X (ix2 r j) = rowMax fun k => X (ix2 r k) := by
  unfold val_main_v54 val_main_v53
  exact (broadcastInDim_col_mat_apply _ _ r j).trans ((broadcastInDim_vec_col_apply _ _ r 0).trans (refRowMax X r))

/-- The reference's exponentials of a row. -/
theorem refExp_apply (X : FVec Ideal S100000x32 .f32) (r : Fin 100000) (j : Fin 32) :
    val_main_v56 (F := Ideal) X (ix2 r j) = Ideal.exp (X (ix2 r j) - rowMax fun k => X (ix2 r k)) := by
  rw [val_main_v56_apply, Ideal.hostUnary_exp_def, val_main_v55_apply, Ideal.subf_def, refMax_apply]

/-- The reference's row sum of the exponentials, started at zero. -/
theorem refSum_apply (X : FVec Ideal S100000x32 .f32) (r : Fin 100000) :
    val_main_v57 (F := Ideal) X (ix1 r) = ∑ j : Fin 32, Ideal.exp (X (ix2 r j) - rowMax fun k => X (ix2 r k)) := by
  rw [val_main_v57_apply, val_main_cst_22_apply, Ideal.ofBits_def, Ideal.ofBits_zero_f32, zero_add]
  refine Finset.sum_congr rfl fun k _ => ?_
  have hk : idx_main_v57 (ix1 r) k = ix2 r k :=
    funext fun a => Fin.ext (by match a with | ⟨0, _⟩ => rfl | ⟨1, _⟩ => rfl)
  rw [hk, refExp_apply]

/-- The reference's softmax stage at row `r` and column `q`: the softmax of row `r`. -/
theorem softmax_ref (X : FVec Ideal S100000x32 .f32) (r : Fin 100000) (q : Fin 32) :
    val_main_v60 (F := Ideal) X (ix2 r q) = smx (fun k => X (ix2 r k)) q := by
  rw [val_main_v60_apply, Ideal.hostDivf_def, refExp_apply]
  unfold smx
  refine congrArg (Ideal.div _) ?_
  unfold val_main_v59 val_main_v58
  exact (broadcastInDim_col_mat_apply _ _ r q).trans ((broadcastInDim_vec_col_apply _ _ r 0).trans (refSum_apply X r))

end Reference

end Cert.Bridge

end
-- ==== Proof.SoftmaxArray.lean ====
/-
  The softmax call's output array as ONE function of the array it reads.

  The call runs on a grid of 50 points; point t reads rows 2000·t … 2000·t + 1999 of the 100000 × 32 input (all 32
  columns) and writes back the same rows of the output.  What it writes is the softmax of each of those rows, which is
  what the reference's softmax stage holds at those rows: every write-back is its block of that one stage, the 50 blocks
  cover the array, and so the output array ends as the reference's stage of the input array.
-/
import proofs.«176725_j31147102830631_2_alg».proof.Proof.Gen.KernelIdeal.Frame
import proofs.«176725_j31147102830631_2_alg».proof.Proof.SoftmaxK
import proofs.«176725_j31147102830631_2_alg».proof.Proof.SoftmaxR

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Both windows of the softmax call sit, at point t, on block (t, 0). -/
theorem softmax_blocks : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block of 2000 rows whose row p is row `row p` of the array: what the call stores at (p, q) is the reference's
    softmax stage of the array at (row p, q). -/
theorem softmax_block (X : FVec Ideal Cert.ReferenceIdeal.S100000x32 .f32) (x : FVec Ideal S2000x32 .f32) (row : Fin 2000 → Fin 100000)
    (hx : ∀ (p : Fin 2000) (k : Fin 32), x (ix2 p k) = X (ix2 (row p) k)) (p : Fin 2000) (q : Fin 32) :
    k0_pay1 (F := Ideal) x (ix2 p q) = Cert.ReferenceIdeal.Read.val_main_v60 (F := Ideal) X (ix2 (row p) q) := by
  rw [Cert.Bridge.softmax_payload, Cert.Bridge.softmax_ref]
  exact congrArg (fun f => Cert.Bridge.smx f q) (funext fun k => hx p k)

/-- What point t writes back is block t of the reference's softmax stage of the input array as the call finds it. -/
theorem softmax_flushed (c : Dev nD) (t : Fin cfg0.N) :
    (dat0 V c).flushed 1 t
      = ((cfg0.win 1).blk t).view.read (Elt Ideal) (Cert.ReferenceIdeal.Read.val_main_v60 (F := Ideal) (V c main_arg2)) := by
  show (cfg0.win 1).cut (grid0.coords t) ((dat0 V c).after 1 t) = _
  rw [after0_1]
  unfold out0_1
  rw [View.canon_unit_zero zero2]
  simp only [View.ld_unit_zero (S := S2000x32) zero2]
  obtain ⟨e0, e1, e2, e3⟩ := softmax_blocks t
  have ht : t.val < 50 := lt_of_lt_of_eq t.isLt N_0
  funext j
  show k0_pay1 (iblk0 V c 0 t) j
    = Cert.ReferenceIdeal.Read.val_main_v60 (F := Ideal) (V c main_arg2) (((cfg0.win 1).blk t).view.emb j)
  have hj0 : (j 0).val < 2000 := (j 0).isLt
  have hj1 : (j 1).val < 32 := (j 1).isLt
  have hout : ((cfg0.win 1).blk t).view.emb j
      = ix2 (⟨t.val * 2000 + (j 0).val, by omega⟩ : Fin 100000) (⟨(j 1).val, hj1⟩ : Fin 32) := by
    funext a; apply Fin.ext
    match a with
    | ⟨0, _⟩ => show win0_1.index t (0 : Fin 2) * 2000 + 1 * (j 0).val = t.val * 2000 + (j 0).val; omega
    | ⟨1, _⟩ => show win0_1.index t (1 : Fin 2) * 32 + 1 * (j 1).val = (j 1).val; omega
  have hin : ∀ (p : Fin 2000) (k : Fin 32),
      iblk0 V c 0 t (ix2 p k) = V c main_arg2 (ix2 (⟨t.val * 2000 + p.val, by omega⟩ : Fin 100000) k) := fun p k => by
    show V c main_arg2 (((cfg0.win 0).blk t).view.emb (ix2 p k)) = _
    refine congrArg (V c main_arg2) (funext fun a => Fin.ext ?_)
    match a with
    | ⟨0, _⟩ => show win0_0.index t (0 : Fin 2) * 2000 + 1 * p.val = t.val * 2000 + p.val; omega
    | ⟨1, _⟩ => show win0_0.index t (1 : Fin 2) * 32 + 1 * k.val = k.val; omega
  rw [hout]
  refine (congrArg (k0_pay1 (iblk0 V c 0 t)) (eq_ix2 j)).trans ?_
  exact softmax_block (V c main_arg2) (iblk0 V c 0 t) (fun p => ⟨t.val * 2000 + p.val, by omega⟩) hin ⟨(j 0).val, hj0⟩ ⟨(j 1).val, hj1⟩

/-- An index of the output array is in point t's block iff each coordinate is in the block's range on its axis. -/
theorem softmax_mem_blk (t : Fin cfg0.N) (i : S100000x32.Idx) :
    i ∈ ((cfg0.win 1).blk t).view.set
      ↔ ∀ a : Fin 2, win0_1.index t a * S2000x32.size a ≤ (i a).val ∧ (i a).val < win0_1.index t a * S2000x32.size a + S2000x32.size a := by
  show i ∈ ((View.whole main_v50).slice (win0_1.rect t)).set ↔ _
  rw [View.set_slice_whole, Rect.mem_set_unit]
  exact Iff.rfl

/-- Every index of the output array is in the block of the point that holds its row: row / 2000. -/
theorem softmax_cover (i : S100000x32.Idx) : ∃ t : Fin cfg0.N, (cfg0.win 1).flush t = true ∧ i ∈ ((cfg0.win 1).blk t).view.set := by
  have hi0 : (i 0).val < 100000 := (i 0).isLt
  have hi1 : (i 1).val < 32 := (i 1).isLt
  have hN : cfg0.N = 50 := N_0
  refine ⟨⟨(i 0).val / 2000, by rw [hN]; omega⟩, flush0_1 _, ?_⟩
  obtain ⟨e0, e1, e2, e3⟩ := softmax_blocks ⟨(i 0).val / 2000, by rw [hN]; omega⟩
  rw [softmax_mem_blk]
  intro a
  match a with
  | ⟨0, _⟩ =>
    show win0_1.index _ (0 : Fin 2) * 2000 ≤ (i 0).val ∧ (i 0).val < win0_1.index _ (0 : Fin 2) * 2000 + 2000
    rw [e2]; show (i 0).val / 2000 * 2000 ≤ (i 0).val ∧ (i 0).val < (i 0).val / 2000 * 2000 + 2000; omega
  | ⟨1, _⟩ =>
    show win0_1.index _ (1 : Fin 2) * 32 ≤ (i 1).val ∧ (i 1).val < win0_1.index _ (1 : Fin 2) * 32 + 32
    rw [e3]; omega

/-- The softmax call's output array, after the call, is the reference's softmax stage of its input array. -/
theorem softmax_final (c : Dev nD) :
    (dat0 V c).arrAt 1 cfg0.N = Cert.ReferenceIdeal.Read.val_main_v60 (F := Ideal) (V c main_arg2) :=
  (dat0 V c).arrAt_eq_of_cover 1 _ (fun t _ => softmax_flushed V c t) softmax_cover

end Cert.KernelIdeal.KValue

end
-- ==== Proof.EdgeScale.lean ====
/-
  Scaling each edge's 32 gathered values by the edge's weight, twice.

  The edge-scaling call multiplies, on blocks of 8000 edges, the block of the weight column spread over the 32 columns
  by the block of gathered values.  The reference spreads the whole 4000000 × 1 weight column over the 32 columns and
  multiplies the whole arrays.  Read at an edge and a column both are  weight(edge) · value(edge, column).
-/
import proofs.«176725_j31147102830631_2_alg».proof.Proof.Gen.KernelIdeal.Skeleton
import proofs.«176725_j31147102830631_2_alg».proof.Proof.Gen.ReferenceIdeal
import proofs.«176725_j31147102830631_2_alg».proof.Proof.LibKeepdims
import proofs.«176725_j31147102830631_2_alg».proof.Proof.LibBroadcastInDim

noncomputable section

namespace Cert.Bridge

open Idealize.ShloMosaic Idealize.ShloMosaic.ValueIdx

section Reference
open Cert.ReferenceIdeal Cert.ReferenceIdeal.Gen

/-- The reference's scaling of a whole array `B` of per-edge values by a column `A` of per-edge weights. -/
def scaleRows (A : FVec Ideal S4000000x1 .f32) (B : FVec Ideal S4000000x32 .f32) : FVec Ideal S4000000x32 .f32 :=
  mulf (broadcastInDim S4000000x32 ![0, 1] bcast_S4000000x1_S4000000x32_0_1 A) B

/-- At edge `r` and column `q`: the edge's weight times the edge's value in that column. -/
theorem scaleRows_apply (A : FVec Ideal S4000000x1 .f32) (B : FVec Ideal S4000000x32 .f32) (r : Fin 4000000) (q : Fin 32) :
    scaleRows A B (ix2 r q) = A (ix2 r (0 : Fin 1)) * B (ix2 r q) :=
  congrArg (· * B (ix2 r q)) (broadcastInDim_col_mat_apply bcast_S4000000x1_S4000000x32_0_1 A r q)

end Reference

section Kernel
open Cert.KernelIdeal Cert.KernelIdeal.Gen

/-- What the edge-scaling call stores, at row `p` and column `q` of a block: the block's weight at `p` times the block's
    value at `(p, q)`. -/
theorem scale_payload (a : FVec Ideal S8000x1 .f32) (b : FVec Ideal S8000x32 .f32) (p : Fin 8000) (q : Fin 32) :
    k1_pay1 (F := Ideal) a b (ix2 p q) = a (ix2 p (0 : Fin 1)) * b (ix2 p q) := by
  unfold k1_pay1
  show broadcastTo S8000x32 (shapeCast S8000x1 a shapeCasts_S8000x1_S8000x1) broadcasts_S8000x1_S8000x32 (ix2 p q)
      * shapeCast S8000x32 b shapeCasts_S8000x32_S8000x32 (ix2 p q) = _
  rw [shapeCast_self a, shapeCast_self b]
  exact congrArg (· * b (ix2 p q)) (broadcastTo_a1_ab_apply a broadcasts_S8000x1_S8000x32 p q)

end Kernel

end Cert.Bridge

end
-- ==== Proof.EdgeArray.lean ====
/-
  The edge-scaling call's output array as ONE function of the two arrays it reads.

  The call runs on a grid of 500 points; point t reads edges 8000·t … 8000·t + 7999 of the weight column and of the
  gathered values and writes back the same edges of the output: each edge's 32 values times the edge's weight.  That is
  the reference's scaling of the whole arrays at those edges, the 500 blocks cover the 4000000 edges, and so the output
  array ends as the reference's scaling of the two arrays the call finds.
-/
import proofs.«176725_j31147102830631_2_alg».proof.Proof.Gen.KernelIdeal.Frame
import proofs.«176725_j31147102830631_2_alg».proof.Proof.EdgeScale

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero2_edge : (![0, 0] : Fin 2 → Nat) = fun _ => 0 := funext fun a => by fin_cases a <;> rfl

/-- All three windows of the edge-scaling call sit, at point t, on block (t, 0). -/
theorem scale_blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Blocks of 8000 edges whose edge p is edge `row p` of the arrays: what the call stores at (p, q) is the reference's
    scaling of the arrays at (row p, q). -/
theorem scale_block (A : FVec Ideal Cert.ReferenceIdeal.S4000000x1 .f32) (B : FVec Ideal Cert.ReferenceIdeal.S4000000x32 .f32)
    (a : FVec Ideal S8000x1 .f32) (b : FVec Ideal S8000x32 .f32) (row : Fin 8000 → Fin 4000000)
    (ha : ∀ p : Fin 8000, a (ix2 p (0 : Fin 1)) = A (ix2 (row p) (0 : Fin 1)))
    (hb : ∀ (p : Fin 8000) (k : Fin 32), b (ix2 p k) = B (ix2 (row p) k)) (p : Fin 8000) (q : Fin 32) :
    k1_pay1 a b (ix2 p q) = Cert.Bridge.scaleRows A B (ix2 (row p) q) := by
  rw [Cert.Bridge.scale_payload, Cert.Bridge.scaleRows_apply, ha, hb]

/-- What point t writes back is block t of the reference's scaling of the two arrays as the call finds them. -/
theorem scale_flushed (c : Dev nD) (t : Fin cfg1.N) :
    (dat1 V c).flushed 2 t
      = ((cfg1.win 2).blk t).view.read (Elt Ideal) (Cert.Bridge.scaleRows (V c main_v60) (V c main_v59)) := by
  show (cfg1.win 2).cut (grid1.coords t) ((dat1 V c).after 2 t) = _
  rw [after1_2]
  unfold out1_2
  rw [View.canon_unit_zero zero2_edge]
  simp only [View.ld_unit_zero (S := S8000x1) zero2_edge, View.ld_unit_zero (S := S8000x32) zero2_edge]
  obtain ⟨e0, e1, e2, e3, e4, e5⟩ := scale_blocks t
  have ht : t.val < 500 := lt_of_lt_of_eq t.isLt N_1
  funext j
  show k1_pay1 (iblk1 V c 0 t) (iblk1 V c 1 t) j
    = Cert.Bridge.scaleRows (V c main_v60) (V c main_v59) (((cfg1.win 2).blk t).view.emb j)
  have hj0 : (j 0).val < 8000 := (j 0).isLt
  have hj1 : (j 1).val < 32 := (j 1).isLt
  have hout : ((cfg1.win 2).blk t).view.emb j
      = ix2 (⟨t.val * 8000 + (j 0).val, by omega⟩ : Fin 4000000) (⟨(j 1).val, hj1⟩ : Fin 32) := by
    funext a; apply Fin.ext
    match a with
    | ⟨0, _⟩ => show win1_2.index t (0 : Fin 2) * 8000 + 1 * (j 0).val = t.val * 8000 + (j 0).val; omega
    | ⟨1, _⟩ => show win1_2.index t (1 : Fin 2) * 32 + 1 * (j 1).val = (j 1).val; omega
  have hinA : ∀ p : Fin 8000,
      iblk1 V c 0 t (ix2 p (0 : Fin 1)) = V c main_v60 (ix2 (⟨t.val * 8000 + p.val, by omega⟩ : Fin 4000000) (0 : Fin 1)) := fun p => by
    show V c main_v60 (((cfg1.win 0).blk t).view.emb (ix2 p (0 : Fin 1))) = _
    refine congrArg (V c main_v60) (funext fun a => Fin.ext ?_)
    match a with
    | ⟨0, _⟩ => show win1_0.index t (0 : Fin 2) * 8000 + 1 * p.val = t.val * 8000 + p.val; omega
    | ⟨1, _⟩ => show win1_0.index t (1 : Fin 2) * 1 + 1 * 0 = 0; omega
  have hinB : ∀ (p : Fin 8000) (k : Fin 32),
      iblk1 V c 1 t (ix2 p k) = V c main_v59 (ix2 (⟨t.val * 8000 + p.val, by omega⟩ : Fin 4000000) k) := fun p k => by
    show V c main_v59 (((cfg1.win 1).blk t).view.emb (ix2 p k)) = _
    refine congrArg (V c main_v59) (funext fun a => Fin.ext ?_)
    match a with
    | ⟨0, _⟩ => show win1_1.index t (0 : Fin 2) * 8000 + 1 * p.val = t.val * 8000 + p.val; omega
    | ⟨1, _⟩ => show win1_1.index t (1 : Fin 2) * 32 + 1 * k.val = k.val; omega
  rw [hout]
  refine (congrArg (k1_pay1 (iblk1 V c 0 t) (iblk1 V c 1 t)) (eq_ix2 j)).trans ?_
  exact scale_block (V c main_v60) (V c main_v59) (iblk1 V c 0 t) (iblk1 V c 1 t) (fun p => ⟨t.val * 8000 + p.val, by omega⟩)
    hinA hinB ⟨(j 0).val, hj0⟩ ⟨(j 1).val, hj1⟩

/-- An index of the output array is in point t's block iff each coordinate is in the block's range on its axis. -/
theorem scale_mem_blk (t : Fin cfg1.N) (i : S4000000x32.Idx) :
    i ∈ ((cfg1.win 2).blk t).view.set
      ↔ ∀ a : Fin 2, win1_2.index t a * S8000x32.size a ≤ (i a).val ∧ (i a).val < win1_2.index t a * S8000x32.size a + S8000x32.size a := by
  show i ∈ ((View.whole main_v61).slice (win1_2.rect t)).set ↔ _
  rw [View.set_slice_whole, Rect.mem_set_unit]
  exact Iff.rfl

/-- Every index of the output array is in the block of the point that holds its edge: edge / 8000. -/
theorem scale_cover (i : S4000000x32.Idx) : ∃ t : Fin cfg1.N, (cfg1.win 2).flush t = true ∧ i ∈ ((cfg1.win 2).blk t).view.set := by
  have hi0 : (i 0).val < 4000000 := (i 0).isLt
  have hi1 : (i 1).val < 32 := (i 1).isLt
  have hN : cfg1.N = 500 := N_1
  refine ⟨⟨(i 0).val / 8000, by rw [hN]; omega⟩, flush1_2 _, ?_⟩
  obtain ⟨e0, e1, e2, e3, e4, e5⟩ := scale_blocks ⟨(i 0).val / 8000, by rw [hN]; omega⟩
  rw [scale_mem_blk]
  intro a
  match a with
  | ⟨0, _⟩ =>
    show win1_2.index _ (0 : Fin 2) * 8000 ≤ (i 0).val ∧ (i 0).val < win1_2.index _ (0 : Fin 2) * 8000 + 8000
    rw [e4]; show (i 0).val / 8000 * 8000 ≤ (i 0).val ∧ (i 0).val < (i 0).val / 8000 * 8000 + 8000; omega
  | ⟨1, _⟩ =>
    show win1_2.index _ (1 : Fin 2) * 32 ≤ (i 1).val ∧ (i 1).val < win1_2.index _ (1 : Fin 2) * 32 + 32
    rw [e5]; omega

/-- The edge-scaling call's output array, after the call, is the reference's scaling of its two input arrays. -/
theorem scale_final (c : Dev nD) :
    (dat1 V c).arrAt 2 cfg1.N = Cert.Bridge.scaleRows (V c main_v60) (V c main_v59) :=
  (dat1 V c).arrAt_eq_of_cover 2 _ (fun t _ => scale_flushed V c t) scale_cover

end Cert.KernelIdeal.KValue

end
-- ==== Proof.Stage1.lean ====
/-
  From the softmax call to the edge-scaling call.

  The softmax call leaves theta = softmax(theta_user): the reference's softmax stage of the argument.  The second stretch
  of host operations pads theta with 50000 zero rows, gathers its rows by edge_cols (negative indices wrapped) and recasts
  edge_vals as a column: the same operations, of theta and the same arguments, as the reference's, so the two arrays the
  edge-scaling call finds are the reference's stages.  The call leaves the reference's scaling of those two arrays: the
  reference's product stage.
-/
import proofs.«176725_j31147102830631_2_alg».proof.Proof.Back
import proofs.«176725_j31147102830631_2_alg».proof.Proof.SoftmaxArray
import proofs.«176725_j31147102830631_2_alg».proof.Proof.EdgeArray
import proofs.«176725_j31147102830631_2_alg».proof.Proof.RefRead

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen
open Cert.ReferenceIdeal.Read (val_main_v45 val_main_v47 val_main_v49 val_main_v60 val_main_v63 val_main_v70 val_main_v72 val_main_v76 val_main_v86 val_main_v192)

variable (m : (ℓ : Loc nD τ sig) → Buf (Elt Ideal) ℓ) (ρ : Dev nD → PrngReg)

/-- After the softmax call its output array holds the reference's softmax stage of `theta_user`. -/
theorem W2_theta (c : Dev nD) : W2 m ρ c (Proc.devRef .tc main_v50) = val_main_v60 (F := Ideal) (m ((c : Thread nD τ).loc main_arg2)) :=
  ((W2_arr m ρ c 1).trans (softmax_final (V1 m ρ) c)).trans (congrArg (val_main_v60 (F := Ideal)) (W1_arg2 m ρ c))

set_option maxHeartbeats 40000000 in
/-- The weight column the edge-scaling call finds. -/
theorem W3_vals (c : Dev nD) : W3 m ρ c (Proc.devRef .tc main_v60) = val_main_v63 (F := Ideal) (m ((c : Thread nD τ).loc main_arg5)) := by
  show StableHlo.after hostOps1 (W2 m ρ c) (Proc.devRef .tc main_v60) = _
  host_results
  rw [W2_arg5 m ρ c]
  rfl

set_option maxHeartbeats 40000000 in
/-- The gathered rows the edge-scaling call finds. -/
theorem W3_gath (c : Dev nD) : W3 m ρ c (Proc.devRef .tc main_v59) = val_main_v70 (F := Ideal) (m ((c : Thread nD τ).loc main_arg2)) (m ((c : Thread nD τ).loc main_arg10)) := by
  show StableHlo.after hostOps1 (W2 m ρ c) (Proc.devRef .tc main_v59) = _
  host_results
  rw [W2_theta m ρ c, W2_arg10 m ρ c]
  rfl

/-- After the edge-scaling call its output array holds the reference's product stage. -/
theorem W4_scaled (c : Dev nD) : W4 m ρ c (Proc.devRef .tc main_v61) = val_main_v72 (F := Ideal) (m ((c : Thread nD τ).loc main_arg2)) (m ((c : Thread nD τ).loc main_arg5)) (m ((c : Thread nD τ).loc main_arg10)) := by
  refine ((W4_arr m ρ c 2).trans (scale_final (V3 m ρ) c)).trans ?_
  show Cert.Bridge.scaleRows (W3 m ρ c (Proc.devRef .tc main_v60)) (W3 m ρ c (Proc.devRef .tc main_v59)) = _
  rw [W3_vals m ρ c, W3_gath m ρ c]
  rfl

end Cert.KernelIdeal.KValue

end
-- ==== Proof.Sigmoid.lean ====
/-
  The sigmoid of  z · w1 + w2, twice.

  The sigmoid call computes, on blocks of 1000 items, the logistic function of the block of z times the block of the w1
  column spread over the 32 columns plus the block of the w2 column spread the same way.  The reference spreads the whole
  50000 × 1 columns, multiplies and adds the whole arrays, and then spells the logistic function out: it negates, takes the
  exponential, adds one, and divides one by the sum.  On the extended reals the logistic function IS that expression
  (with 1/(1 + e^{+∞}) = 0 and 1/(1 + e^{−∞}) = 1), and the float 1.0 is the number one: read at an item and a column
  both are  logistic(z · w1 + w2).
-/
import proofs.«176725_j31147102830631_2_alg».proof.Proof.Gen.KernelIdeal.Skeleton
import proofs.«176725_j31147102830631_2_alg».proof.Proof.Gen.ReferenceIdeal
import proofs.«176725_j31147102830631_2_alg».proof.Proof.LibKeepdims
import proofs.«176725_j31147102830631_2_alg».proof.Proof.LibBroadcastInDim

noncomputable section

namespace Cert.Bridge

open Idealize.ShloMosaic Idealize.ShloMosaic.ValueIdx

/-- The float 1.0 is the number one. -/
theorem ofBits_one_f32 : Ideal.ofBits .f32 0x3F800000#32 = 1 := by
  simp [Ideal.ofBits, Ideal.ieee, -EReal.coe_mul]; norm_num

section Reference
open Cert.ReferenceIdeal Cert.ReferenceIdeal.Gen

/-- The reference's sigmoid stage as a function of the whole arrays `Z` (50000 × 32), `w1` and `w2` (50000 × 1). -/
def sigRows (Z : FVec Ideal S50000x32 .f32) (w1 w2 : FVec Ideal S50000x1 .f32) : FVec Ideal S50000x32 .f32 :=
  Host.divf (broadcastInDim S50000x32 ![] bcast_S_S50000x32 (constant (F := Ideal) S_ .f32 0x3F800000#32))
    (addf (broadcastInDim S50000x32 ![] bcast_S_S50000x32 (constant (F := Ideal) S_ .f32 0x3F800000#32))
      (Host.exp (Host.negf (addf (mulf Z (broadcastInDim S50000x32 ![0, 1] bcast_S50000x1_S50000x32_0_1 w1))
        (broadcastInDim S50000x32 ![0, 1] bcast_S50000x1_S50000x32_0_1 w2)))))

/-- At item `r` and column `q`: the logistic function of  z · w1 + w2  there. -/
theorem sigRows_apply (Z : FVec Ideal S50000x32 .f32) (w1 w2 : FVec Ideal S50000x1 .f32) (r : Fin 50000) (q : Fin 32) :
    sigRows Z w1 w2 (ix2 r q) = Ideal.logistic (Z (ix2 r q) * w1 (ix2 r (0 : Fin 1)) + w2 (ix2 r (0 : Fin 1))) := by
  unfold sigRows
  show Ideal.div (broadcastInDim S50000x32 ![] bcast_S_S50000x32 (constant (F := Ideal) S_ .f32 0x3F800000#32) (ix2 r q))
      (broadcastInDim S50000x32 ![] bcast_S_S50000x32 (constant (F := Ideal) S_ .f32 0x3F800000#32) (ix2 r q)
        + Ideal.exp (-(Z (ix2 r q) * broadcastInDim S50000x32 ![0, 1] bcast_S50000x1_S50000x32_0_1 w1 (ix2 r q)
            + broadcastInDim S50000x32 ![0, 1] bcast_S50000x1_S50000x32_0_1 w2 (ix2 r q)))) = _
  rw [broadcastInDim_scalar_apply, broadcastInDim_col_mat_apply bcast_S50000x1_S50000x32_0_1 w1 r q,
    broadcastInDim_col_mat_apply bcast_S50000x1_S50000x32_0_1 w2 r q]
  show Ideal.div (Ideal.ofBits .f32 0x3F800000#32) (Ideal.ofBits .f32 0x3F800000#32 + _) = _
  rw [ofBits_one_f32]
  rfl

end Reference

section Kernel
open Cert.KernelIdeal Cert.KernelIdeal.Gen

/-- What the sigmoid call stores, at row `p` and column `q` of a block. -/
theorem sig_payload (z : FVec Ideal S1000x32 .f32) (a b : FVec Ideal S1000x1 .f32) (p : Fin 1000) (q : Fin 32) :
    k2_pay1 (F := Ideal) z a b (ix2 p q) = Ideal.logistic (z (ix2 p q) * a (ix2 p (0 : Fin 1)) + b (ix2 p (0 : Fin 1))) := by
  unfold k2_pay1
  show Ideal.logistic (shapeCast S1000x32 z shapeCasts_S1000x32_S1000x32 (ix2 p q) * broadcastTo S1000x32 a broadcasts_S1000x1_S1000x32 (ix2 p q)
      + broadcastTo S1000x32 b broadcasts_S1000x1_S1000x32 (ix2 p q)) = _
  rw [shapeCast_self z, broadcastTo_a1_ab_apply a broadcasts_S1000x1_S1000x32 p q, broadcastTo_a1_ab_apply b broadcasts_S1000x1_S1000x32 p q]

end Kernel

end Cert.Bridge

end
-- ==== Proof.SigmoidArray.lean ====
/-
  The sigmoid call's output array as ONE function of the three arrays it reads.

  The call runs on a grid of 50 points; point t reads items 1000·t … 1000·t + 999 of z (all 32 columns) and of the two
  50000 × 1 columns w1 and w2, and writes back the same items of the output: the logistic function of z · w1 + w2.
  That is the reference's sigmoid stage of the whole arrays at those items, the 50 blocks cover the 50000 items, and so
  the output array ends as the reference's sigmoid stage of the three arrays the call finds.
-/
import proofs.«176725_j31147102830631_2_alg».proof.Proof.Gen.KernelIdeal.Frame
import proofs.«176725_j31147102830631_2_alg».proof.Proof.Sigmoid

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero2_sig : (![0, 0] : Fin 2 → Nat) = fun _ => 0 := funext fun a => by fin_cases a <;> rfl

/-- All four windows of the sigmoid call sit, at point t, on block (t, 0). -/
theorem sig_blocks : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Blocks of 1000 items whose item p is item `row p` of the arrays: what the call stores at (p, q) is the reference's
    sigmoid stage of the arrays at (row p, q). -/
theorem sig_block (Z : FVec Ideal Cert.ReferenceIdeal.S50000x32 .f32) (W1 W2 : FVec Ideal Cert.ReferenceIdeal.S50000x1 .f32)
    (z : FVec Ideal S1000x32 .f32) (a b : FVec Ideal S1000x1 .f32) (row : Fin 1000 → Fin 50000)
    (hz : ∀ (p : Fin 1000) (k : Fin 32), z (ix2 p k) = Z (ix2 (row p) k))
    (ha : ∀ p : Fin 1000, a (ix2 p (0 : Fin 1)) = W1 (ix2 (row p) (0 : Fin 1)))
    (hb : ∀ p : Fin 1000, b (ix2 p (0 : Fin 1)) = W2 (ix2 (row p) (0 : Fin 1))) (p : Fin 1000) (q : Fin 32) :
    k2_pay1 z a b (ix2 p q) = Cert.Bridge.sigRows Z W1 W2 (ix2 (row p) q) := by
  rw [Cert.Bridge.sig_payload, Cert.Bridge.sigRows_apply, hz, ha, hb]

/-- What point t writes back is block t of the reference's sigmoid stage of the three arrays as the call finds them. -/
theorem sig_flushed (c : Dev nD) (t : Fin cfg2.N) :
    (dat2 V c).flushed 3 t
      = ((cfg2.win 3).blk t).view.read (Elt Ideal) (Cert.Bridge.sigRows (V c main_v65) (V c main_arg3) (V c main_arg4)) := by
  show (cfg2.win 3).cut (grid2.coords t) ((dat2 V c).after 3 t) = _
  rw [after2_3]
  unfold out2_3
  rw [View.canon_unit_zero zero2_sig]
  simp only [View.ld_unit_zero (S := S1000x1) zero2_sig, View.ld_unit_zero (S := S1000x32) zero2_sig]
  obtain ⟨e0, e1, e2, e3, e4, e5, e6, e7⟩ := sig_blocks t
  have ht : t.val < 50 := lt_of_lt_of_eq t.isLt N_2
  funext j
  show k2_pay1 (iblk2 V c 0 t) (iblk2 V c 1 t) (iblk2 V c 2 t) j
    = Cert.Bridge.sigRows (V c main_v65) (V c main_arg3) (V c main_arg4) (((cfg2.win 3).blk t).view.emb j)
  have hj0 : (j 0).val < 1000 := (j 0).isLt
  have hj1 : (j 1).val < 32 := (j 1).isLt
  have hout : ((cfg2.win 3).blk t).view.emb j
      = ix2 (⟨t.val * 1000 + (j 0).val, by omega⟩ : Fin 50000) (⟨(j 1).val, hj1⟩ : Fin 32) := by
    funext a; apply Fin.ext
    match a with
    | ⟨0, _⟩ => show win2_3.index t (0 : Fin 2) * 1000 + 1 * (j 0).val = t.val * 1000 + (j 0).val; omega
    | ⟨1, _⟩ => show win2_3.index t (1 : Fin 2) * 32 + 1 * (j 1).val = (j 1).val; omega
  have hinZ : ∀ (p : Fin 1000) (k : Fin 32),
      iblk2 V c 0 t (ix2 p k) = V c main_v65 (ix2 (⟨t.val * 1000 + p.val, by omega⟩ : Fin 50000) k) := fun p k => by
    show V c main_v65 (((cfg2.win 0).blk t).view.emb (ix2 p k)) = _
    refine congrArg (V c main_v65) (funext fun a => Fin.ext ?_)
    match a with
    | ⟨0, _⟩ => show win2_0.index t (0 : Fin 2) * 1000 + 1 * p.val = t.val * 1000 + p.val; omega
    | ⟨1, _⟩ => show win2_0.index t (1 : Fin 2) * 32 + 1 * k.val = k.val; omega
  have hinA : ∀ p : Fin 1000,
      iblk2 V c 1 t (ix2 p (0 : Fin 1)) = V c main_arg3 (ix2 (⟨t.val * 1000 + p.val, by omega⟩ : Fin 50000) (0 : Fin 1)) := fun p => by
    show V c main_arg3 (((cfg2.win 1).blk t).view.emb (ix2 p (0 : Fin 1))) = _
    refine congrArg (V c main_arg3) (funext fun a => Fin.ext ?_)
    match a with
    | ⟨0, _⟩ => show win2_1.index t (0 : Fin 2) * 1000 + 1 * p.val = t.val * 1000 + p.val; omega
    | ⟨1, _⟩ => show win2_1.index t (1 : Fin 2) * 1 + 1 * 0 = 0; omega
  have hinB : ∀ p : Fin 1000,
      iblk2 V c 2 t (ix2 p (0 : Fin 1)) = V c main_arg4 (ix2 (⟨t.val * 1000 + p.val, by omega⟩ : Fin 50000) (0 : Fin 1)) := fun p => by
    show V c main_arg4 (((cfg2.win 2).blk t).view.emb (ix2 p (0 : Fin 1))) = _
    refine congrArg (V c main_arg4) (funext fun a => Fin.ext ?_)
    match a with
    | ⟨0, _⟩ => show win2_2.index t (0 : Fin 2) * 1000 + 1 * p.val = t.val * 1000 + p.val; omega
    | ⟨1, _⟩ => show win2_2.index t (1 : Fin 2) * 1 + 1 * 0 = 0; omega
  rw [hout]
  refine (congrArg (k2_pay1 (iblk2 V c 0 t) (iblk2 V c 1 t) (iblk2 V c 2 t)) (eq_ix2 j)).trans ?_
  exact sig_block (V c main_v65) (V c main_arg3) (V c main_arg4) (iblk2 V c 0 t) (iblk2 V c 1 t) (iblk2 V c 2 t)
    (fun p => ⟨t.val * 1000 + p.val, by omega⟩) hinZ hinA hinB ⟨(j 0).val, hj0⟩ ⟨(j 1).val, hj1⟩

/-- An index of the output array is in point t's block iff each coordinate is in the block's range on its axis. -/
theorem sig_mem_blk (t : Fin cfg2.N) (i : S50000x32.Idx) :
    i ∈ ((cfg2.win 3).blk t).view.set
      ↔ ∀ a : Fin 2, win2_3.index t a * S1000x32.size a ≤ (i a).val ∧ (i a).val < win2_3.index t a * S1000x32.size a + S1000x32.size a := by
  show i ∈ ((View.whole main_v66).slice (win2_3.rect t)).set ↔ _
  rw [View.set_slice_whole, Rect.mem_set_unit]
  exact Iff.rfl

/-- Every index of the output array is in the block of the point that holds its item: item / 1000. -/
theorem sig_cover (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  have hN : cfg2.N = 50 := N_2
  refine ⟨⟨(i 0).val / 1000, by rw [hN]; omega⟩, flush2_3 _, ?_⟩
  obtain ⟨e0, e1, e2, e3, e4, e5, e6, e7⟩ := sig_blocks ⟨(i 0).val / 1000, by rw [hN]; omega⟩
  rw [sig_mem_blk]
  intro a
  match a with
  | ⟨0, _⟩ =>
    show win2_3.index _ (0 : Fin 2) * 1000 ≤ (i 0).val ∧ (i 0).val < win2_3.index _ (0 : Fin 2) * 1000 + 1000
    rw [e6]; show (i 0).val / 1000 * 1000 ≤ (i 0).val ∧ (i 0).val < (i 0).val / 1000 * 1000 + 1000; omega
  | ⟨1, _⟩ =>
    show win2_3.index _ (1 : Fin 2) * 32 ≤ (i 1).val ∧ (i 1).val < win2_3.index _ (1 : Fin 2) * 32 + 32
    rw [e7]; omega

/-- The sigmoid call's output array, after the call, is the reference's sigmoid stage of its three input arrays. -/
theorem sig_final (c : Dev nD) :
    (dat2 V c).arrAt 3 cfg2.N = Cert.Bridge.sigRows (V c main_v65) (V c main_arg3) (V c main_arg4) :=
  (dat2 V c).arrAt_eq_of_cover 3 _ (fun t _ => sig_flushed V c t) sig_cover

end Cert.KernelIdeal.KValue

end
-- ==== Proof.Stage2.lean ====
/-
  From the edge-scaling call to the sigmoid call.

  The third stretch of host operations scatter-adds the scaled rows into 150000 zero rows by edge_rows and keeps the last
  50000 rows: the same operations as the reference's, of the product stage and the same argument.  The sigmoid call finds
  that slice and the two columns w1, w2 as launched, and leaves the reference's sigmoid stage.
-/
import proofs.«176725_j31147102830631_2_alg».proof.Proof.Back
import proofs.«176725_j31147102830631_2_alg».proof.Proof.Stage1
import proofs.«176725_j31147102830631_2_alg».proof.Proof.SigmoidArray
import proofs.«176725_j31147102830631_2_alg».proof.Proof.RefRead

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen
open Cert.ReferenceIdeal.Read (val_main_v45 val_main_v47 val_main_v49 val_main_v60 val_main_v63 val_main_v70 val_main_v72 val_main_v76 val_main_v86 val_main_v192)

variable (m : (ℓ : Loc nD τ sig) → Buf (Elt Ideal) ℓ) (ρ : Dev nD → PrngReg)

set_option maxHeartbeats 40000000 in
/-- The item rows of the aggregate, which the sigmoid call finds. -/
theorem W5_zitem (c : Dev nD) : W5 m ρ c (Proc.devRef .tc main_v65) = val_main_v76 (F := Ideal) (m ((c : Thread nD τ).loc main_arg2)) (m ((c : Thread nD τ).loc main_arg5)) (m ((c : Thread nD τ).loc main_arg9)) (m ((c : Thread nD τ).loc main_arg10)) := by
  show StableHlo.after hostOps2 (W4 m ρ c) (Proc.devRef .tc main_v65) = _
  host_results
  rw [W4_scaled m ρ c, W4_arg9 m ρ c]
  rfl

/-- After the sigmoid call its output array holds the reference's sigmoid stage. -/
theorem W6_z1 (c : Dev nD) : W6 m ρ c (Proc.devRef .tc main_v66)
    = val_main_v86 (F := Ideal) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) := by
  refine ((W6_arr m ρ c 3).trans (sig_final (V5 m ρ) c)).trans ?_
  show Cert.Bridge.sigRows (W5 m ρ c (Proc.devRef .tc main_v65)) (W5 m ρ c (Proc.devRef .tc main_arg3)) (W5 m ρ c (Proc.devRef .tc main_arg4)) = _
  rw [W5_zitem m ρ c, W5_arg3 m ρ c, W5_arg4 m ρ c]
  rfl

/-- theta is still there after the sigmoid call: neither later stretch writes it and neither later call owns it. -/
theorem W6_theta (c : Dev nD) : W6 m ρ c (Proc.devRef .tc main_v50) = val_main_v60 (F := Ideal) (m ((c : Thread nD τ).loc main_arg2)) :=
  (back6 m ρ c main_v50 (by decide)).trans ((back5 m ρ c main_v50 (by not_written)).trans ((back4 m ρ c main_v50 (by decide)).trans
    ((back3 m ρ c main_v50 (by not_written)).trans (W2_theta m ρ c))))

end Cert.KernelIdeal.KValue

end
-- ==== Proof.TailFn.lean ====
/-
  The end of @main as a function of what it reads.

  The thirteen stretches of host operations after the sigmoid call — gathers of theta and of the sigmoid array by the three
  index batches, the two gamma vectors, the sigmoids of the two score vectors, the three stackings, the clamped logarithms,
  the three means and the loss — read eight buffers written before them.  From ANY contents in which those eight hold the
  reference's stages of some arguments x0 … x10 (theta its softmax stage, the sigmoid array its sigmoid stage, the index
  batches themselves, the two score vectors and the regularisation term their stages), the loss buffer ends at the
  reference's last stage of x0 … x10: the operations are the reference's own, one for one.
-/
import proofs.«176725_j31147102830631_2_alg».proof.Proof.Back
import proofs.«176725_j31147102830631_2_alg».proof.Proof.RefRead

set_option maxRecDepth 65536

noncomputable section

namespace Cert.KernelIdeal.KValue

open Idealize.ShloMosaic Idealize.ShloMosaic.TcCoe Idealize.SL.Sem Idealize.ShloMosaic.StableHlo
open Cert.KernelIdeal Cert.KernelIdeal.Gen
open Cert.ReferenceIdeal.Read (val_main_v45 val_main_v47 val_main_v49 val_main_v60 val_main_v86 val_main_v192)

set_option maxHeartbeats 400000000 in
theorem tail_value (U : Valuation τ sig (Elt Ideal))
    (x0 : FVec Ideal Cert.ReferenceIdeal.S100000x64 .f32) (x1 : FVec Ideal Cert.ReferenceIdeal.S50000x64 .f32)
    (x2 : FVec Ideal Cert.ReferenceIdeal.S100000x32 .f32) (x3 x4 : FVec Ideal Cert.ReferenceIdeal.S50000x1 .f32)
    (x5 : FVec Ideal Cert.ReferenceIdeal.S4000000 .f32) (x6 x7 x8 : IVec Cert.ReferenceIdeal.S16384 32)
    (x9 x10 : IVec Cert.ReferenceIdeal.S4000000 32)
    (htheta : U (Proc.devRef .tc main_v50) = val_main_v60 (F := Ideal) x2)
    (hz1 : U (Proc.devRef .tc main_v66) = val_main_v86 (F := Ideal) x2 x3 x4 x5 x9 x10)
    (h6 : U (Proc.devRef .tc main_arg6) = x6) (h7 : U (Proc.devRef .tc main_arg7) = x7) (h8 : U (Proc.devRef .tc main_arg8) = x8)
    (hpos : U (Proc.devRef .tc main_v47) = val_main_v47 (F := Ideal) x0 x1 x6 x7)
    (hneg : U (Proc.devRef .tc main_v49) = val_main_v49 (F := Ideal) x0 x1 x6 x8)
    (hreg : U (Proc.devRef .tc main_v45) = val_main_v45 (F := Ideal) x0 x1 x2 x3 x4 x6 x7 x8) :
    StableHlo.after (hostOps3_12 (F := Ideal)) (StableHlo.after hostOps3_11 (StableHlo.after hostOps3_10 (StableHlo.after hostOps3_9
      (StableHlo.after hostOps3_8 (StableHlo.after hostOps3_7 (StableHlo.after hostOps3_6 (StableHlo.after hostOps3_5
      (StableHlo.after hostOps3_4 (StableHlo.after hostOps3_3 (StableHlo.after hostOps3_2 (StableHlo.after hostOps3_1
      (StableHlo.after hostOps3 U)))))))))))) (Proc.devRef .tc main_v172)
    = val_main_v192 (F := Ideal) x0 x1 x2 x3 x4 x5 x6 x7 x8 x9 x10 := by
  host_results
  rw [htheta, hz1, h6, h7, h8, hpos, hneg, hreg]
  rfl

end Cert.KernelIdeal.KValue

end
-- ==== Proof.Tail.lean ====
/-
  The end of @main: from the sigmoid call's output to the loss.

  After the third call @main gathers rows of theta and of the sigmoid array by the three index batches, forms the two gamma
  vectors, the two sigmoids of the scores, stacks them, and computes the three clamped cross-entropy means and the loss:
  thirteen stretches of host operations, the same operations as the reference's last hundred.  They read eight buffers
  written earlier: theta, the sigmoid array, the three index arguments, and the regularisation term and the two score
  vectors of the first stretch.  Each of the eight holds the reference's stage of the arguments, so the loss buffer ends
  at the reference's last stage.
-/
import proofs.«176725_j31147102830631_2_alg».proof.Proof.Back
import proofs.«176725_j31147102830631_2_alg».proof.Proof.Host0
import proofs.«176725_j31147102830631_2_alg».proof.Proof.Stage2
import proofs.«176725_j31147102830631_2_alg».proof.Proof.RefRead
import proofs.«176725_j31147102830631_2_alg».proof.Proof.TailFn

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen
open Cert.ReferenceIdeal.Read (val_main_v45 val_main_v47 val_main_v49 val_main_v60 val_main_v63 val_main_v70 val_main_v72 val_main_v76 val_main_v86 val_main_v192)

variable (m : (ℓ : Loc nD τ sig) → Buf (Elt Ideal) ℓ) (ρ : Dev nD → PrngReg)

theorem W6_reg (c : Dev nD) : W6 m ρ c (Proc.devRef .tc main_v45)
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) :=
  (W6_of_W1 m ρ c main_v45 (by not_written) (by not_written) (by decide) (by decide) (by decide)).trans (W1_reg m ρ c)
theorem W6_pos (c : Dev nD) : W6 m ρ c (Proc.devRef .tc main_v47) = val_main_v47 (F := Ideal) (m ((c : Thread nD τ).loc main_arg0)) (m ((c : Thread nD τ).loc main_arg1)) (m ((c : Thread nD τ).loc main_arg6)) (m ((c : Thread nD τ).loc main_arg7)) :=
  (W6_of_W1 m ρ c main_v47 (by not_written) (by not_written) (by decide) (by decide) (by decide)).trans (W1_pos m ρ c)
theorem W6_neg (c : Dev nD) : W6 m ρ c (Proc.devRef .tc main_v49) = val_main_v49 (F := Ideal) (m ((c : Thread nD τ).loc main_arg0)) (m ((c : Thread nD τ).loc main_arg1)) (m ((c : Thread nD τ).loc main_arg6)) (m ((c : Thread nD τ).loc main_arg8)) :=
  (W6_of_W1 m ρ c main_v49 (by not_written) (by not_written) (by decide) (by decide) (by decide)).trans (W1_neg m ρ c)

/-- The loss buffer at the end of @main holds the reference's last stage of the eleven arguments as launched. -/
theorem W19_loss (c : Dev nD) : W19 m ρ c (Proc.devRef .tc main_v172)
    = val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  tail_value (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (W6_theta m ρ c) (W6_z1 m ρ c) (W6_arg6 m ρ c) (W6_arg7 m ρ c) (W6_arg8 m ρ c) (W6_pos m ρ c) (W6_neg m ρ c) (W6_reg m ρ c)

end Cert.KernelIdeal.KValue

end
-- ==== Proof.RefValue.lean ====
/-
  The reference's result, as its last stage.

  The reference's run ends with its result buffer at the composed term of all its operations; the stage-by-stage reading of
  the program names the same value as its last stage, a function of the eleven arguments.  The two are one term once the
  stages' definitions are opened.
-/
import proofs.«176725_j31147102830631_2_alg».proof.Proof.RefRun
import proofs.«176725_j31147102830631_2_alg».proof.Proof.RefRead

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 65536 in
set_option maxHeartbeats 40000000 in
/-- The term the run names `res_main_v192` is the last stage of the arguments as launched. -/
theorem val_main_v192_eq (m : (ℓ : Loc nD τ sig) → Buf (Elt F) ℓ) (c : Dev nD) :
    Cert.ReferenceIdeal.Value.res_main_v192 m c
      = Cert.ReferenceIdeal.Read.val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v192; rfl

end Cert.ReferenceIdeal.RefValue

end
-- ==== Proof.lean ====
/-
  Softmax of the user factors, a sparse aggregation over four million edges, a sigmoid, and a clamped cross-entropy loss:
  the kernel's program against its reference, at the extended reals.

  The kernel's @main makes three calls.  The first computes theta = softmax(theta_user) on blocks of 2000 rows; the second
  multiplies each gathered row of theta (padded with zero rows, gathered by edge_cols) by its edge's weight on blocks of 8000
  edges; the third computes sigmoid(z · w1 + w2) on blocks of 1000 items, z the item rows of the scatter-add of the scaled
  rows by edge_rows.  Everything around the calls — the gathers, the scatter-add, the regularisation term, the scores, the
  stacked cross-entropy means — is host operations, the same ones the reference runs.  The reference computes the three
  pieces on the host: the softmax with the row maximum joined once more with −∞, the product of whole arrays, the sigmoid
  spelt 1 / (1 + exp(−x)).

  At the extended reals each call's output array is the reference's stage of the arrays the call reads: every block the
  call writes back is the block of that stage (the lane reductions are the host's reductions; max(−∞, M) = M; the logistic
  function is 1 / (1 + exp(−x)) with its values 0 and 1 at the infinities, and the float 1.0 is the number one), and the blocks
  cover the array.  No law of arithmetic that fails at an infinity is used, so the precondition (finite inputs) is not
  opened.  Walking @main's segments, every buffer the next segment reads holds the reference's stage of the arguments, and
  the loss buffer ends at the reference's last stage; the reference's run ends there too.

  The three frames: the kernel's and its idealization's are the generated frame certificates (three class-A regions among
  host stretches); the reference has no call, and its frame is its run with the result dropped.  The ideal pass rewrote
  nothing, so the idealization claim has no conjunct.
-/
import proofs.«176725_j31147102830631_2_alg».proof.Defs
import proofs.«176725_j31147102830631_2_alg».proof.Proof.Gen.Kernel
import proofs.«176725_j31147102830631_2_alg».proof.Proof.Gen.Kernel.Skeleton
import proofs.«176725_j31147102830631_2_alg».proof.Proof.Gen.Kernel.Launch
import proofs.«176725_j31147102830631_2_alg».proof.Proof.Gen.Kernel.Points
import proofs.«176725_j31147102830631_2_alg».proof.Proof.Gen.Kernel.Frame
import proofs.«176725_j31147102830631_2_alg».proof.Proof.Gen.KernelIdeal
import proofs.«176725_j31147102830631_2_alg».proof.Proof.Gen.KernelIdeal.Skeleton
import proofs.«176725_j31147102830631_2_alg».proof.Proof.Gen.KernelIdeal.Launch
import proofs.«176725_j31147102830631_2_alg».proof.Proof.Gen.KernelIdeal.Points
import proofs.«176725_j31147102830631_2_alg».proof.Proof.Gen.KernelIdeal.Frame
import proofs.«176725_j31147102830631_2_alg».proof.Proof.Gen.ReferenceIdeal
import proofs.«176725_j31147102830631_2_alg».proof.Proof.Gen.Pre_finite_inputs
import proofs.«176725_j31147102830631_2_alg».proof.Proof.KRun
import proofs.«176725_j31147102830631_2_alg».proof.Proof.Tail
import proofs.«176725_j31147102830631_2_alg».proof.Proof.RefRun
import proofs.«176725_j31147102830631_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the loss at the reference's last stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v192 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.W19_loss m ρ c), (h c).2⟩) (Cert.KernelIdeal.KValue.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.val_main_v192_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
